-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45_1)) (v1 : (c : Dev Cert.KernelIdeal.nD) → Buf (Elt Ideal) ((c.tc : Thread Cert.KernelIdeal.nD Cert.KernelIdeal.τ).loc Cert.KernelIdeal.main_v45_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_1) = v0 c
          ∧ r.2.mem ((c.tc : Thread Cert.KernelIdeal.nD Cert.KernelIdeal.τ).loc Cert.KernelIdeal.main_v45_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 65
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S640000, .i32⟩
  | .hbm, ⟨26, _⟩ => ⟨S640000, .i1⟩
  | .hbm, ⟨27, _⟩ => ⟨S_, .i32⟩
  | .hbm, ⟨28, _⟩ => ⟨S640000, .i32⟩
  | .hbm, ⟨29, _⟩ => ⟨S640000, .i32⟩
  | .hbm, ⟨30, _⟩ => ⟨S640000, .i32⟩
  | .hbm, ⟨31, _⟩ => ⟨S640000x1, .i32⟩
  | .hbm, ⟨32, _⟩ => ⟨S640000x128, .f32⟩
  | .hbm, ⟨33, _⟩ => ⟨S_, .f32⟩
  | .hbm, ⟨34, _⟩ => ⟨S50000x128, .f32⟩
  | .hbm, ⟨35, _⟩ => ⟨S640000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S1x128, .f32⟩
  | .hbm, ⟨43, _⟩ => ⟨S50000x128, .f32⟩
  | .hbm, ⟨44, _⟩ => ⟨S_, .i32⟩
  | .hbm, ⟨45, _⟩ => ⟨S640000, .i32⟩
  | .hbm, ⟨46, _⟩ => ⟨S640000, .i1⟩
  | .hbm, ⟨47, _⟩ => ⟨S_, .i32⟩
  | .hbm, ⟨48, _⟩ => ⟨S640000, .i32⟩
  | .hbm, ⟨49, _⟩ => ⟨S640000, .i32⟩
  | .hbm, ⟨50, _⟩ => ⟨S640000, .i32⟩
  | .hbm, ⟨51, _⟩ => ⟨S640000x1, .i32⟩
  | .hbm, ⟨52, _⟩ => ⟨S640000x128, .f32⟩
  | .hbm, ⟨53, _⟩ => ⟨S_, .f32⟩
  | .hbm, ⟨54, _⟩ => ⟨S50000x128, .f32⟩
  | .hbm, ⟨55, _⟩ => ⟨S640000x1, .i32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x64, .f32⟩
  | .hbm, ⟨61, _⟩ => ⟨S128x64, .f32⟩
  | .hbm, ⟨62, _⟩ => ⟨S1x64, .f32⟩
  | .hbm, ⟨63, _⟩ => ⟨S50000x64, .f32⟩
  | .hbm, ⟨64, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45_0 : Ref sig .tc := ⟨.hbm, 63, rfl⟩
abbrev main_v45_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S5000 : S5000x64.Reduces [1] S5000
  shapeCasts_S5000_S5000x1 : S5000.ShapeCasts S5000x1
  broadcasts_S5000x1_S5000x64 : S5000x1.Broadcasts S5000x64
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45_0) S5000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v45_1) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S1x640000, .i32⟩
  | .hbm, ⟨49, _⟩ => ⟨S640000, .i32⟩
  | .hbm, ⟨50, _⟩ => ⟨S1x640000, .i32⟩
  | .hbm, ⟨51, _⟩ => ⟨S640000, .i32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S50000x128, .f32⟩
  | .hbm, ⟨63, _⟩ => ⟨S640000x1, .i32⟩
  | .hbm, ⟨64, _⟩ => ⟨S50000x128, .f32⟩
  | .hbm, ⟨65, _⟩ => ⟨S_, .f32⟩
  | .hbm, ⟨66, _⟩ => ⟨S640000, .f32⟩
  | .hbm, ⟨67, _⟩ => ⟨S_, .f32⟩
  | .hbm, ⟨68, _⟩ => ⟨S50000, .f32⟩
  | .hbm, ⟨69, _⟩ => ⟨S640000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S128x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S128x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x64, .f32⟩
  | .hbm, ⟨92, _⟩ => ⟨S50000x64, .f32⟩
  | .hbm, ⟨93, _⟩ => ⟨S50000x64, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S50000x64, .f32⟩
  | .hbm, ⟨99, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v63 : Ref sig .tc := ⟨.hbm, 99, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000x1_S50000x64_0_1 : S50000x1.BroadcastsInDim S50000x64 (![0, 1] : Fin 2 → Fin S50000x64.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelHost.lean ====
/-
  The host operations around the two pallas_calls, as functions of the buffers they read.

  Before the first call the host computes, from the edge list, the edges' sources (negative indices wrapped) and targets,
  the in-degree of every node (a scatter-add of ones at the targets), the reciprocal of the in-degree floored at one,
  the neighbour sum of the node features (the rows gathered at the sources, scatter-added at the targets) scaled row by
  row by that reciprocal, the two transposed weight matrices and the bias as a row.  Between the calls it does the same
  to the first call's output with the same sources, targets and reciprocals, and transposes the second layer's weights.
  Each stretch is read here as those terms of whatever the buffers held when the stretch began.
-/
import proofs.«148079_j2370821947944_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable [Cert.KernelIdeal.Facts]

/-- The contents of a buffer of a given shape and element type, at the ideal values. -/
abbrev C (s : Shape) (e : EltTy) : Type := (⟨s, e⟩ : BufTy).Contents (Elt Ideal)

/-- The edges' sources: row 0 of the edge list. -/
def src (ei : C S2x640000 .i32) : C S640000 .i32 := fun i =>
  shapeCast main_v1.ty.shape (extractStridedSlice S1x640000 ![0, 0] ei slices_S2x640000_S1x640000_0_0) shapeCasts_S1x640000_S640000 i
/-- The edges' targets: row 1 of the edge list. -/
def dst (ei : C S2x640000 .i32) : C S640000 .i32 := fun i =>
  shapeCast main_v3.ty.shape (extractStridedSlice S1x640000 ![1, 0] ei slices_S2x640000_S1x640000_1_0) shapeCasts_S1x640000_S640000 i

/-- The neighbour sum of a feature matrix: its rows gathered at the sources (a negative source wrapped by the row count),
    scatter-added into zeros at the targets. -/
def agg (d s : C S640000 .i32) (feat : FVec Ideal S50000x128 .f32) : FVec Ideal S50000x128 .f32 :=
  Host.scatterAdd (F := Ideal) scatter_S50000x128_S640000x1_S640000x128_1_0_0_1
    (broadcastInDim S50000x128 ![] bcast_S_S50000x128 (constant (F := Ideal) S_ .f32 0x00000000#32))
    (broadcastInDim S640000x1 ![0] bcast_S640000_S640000x1_0 d)
    (Host.gather gather_S50000x128_S640000x1_S640000x128_1_0_n_n_0_1_1128 feat
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 50000#32))) s)))

/-- The in-degrees: ones scatter-added into zeros at the targets. -/
def cnt (d : C S640000 .i32) : FVec Ideal S50000 .f32 :=
  Host.scatterAdd (F := Ideal) scatter_S50000_S640000x1_S640000_n_0_0_1
    (broadcastInDim S50000 ![] bcast_S_S50000 (constant (F := Ideal) S_ .f32 0x00000000#32))
    (broadcastInDim S640000x1 ![0] bcast_S640000_S640000x1_0 d)
    (broadcastInDim S640000 ![] bcast_S_S640000 (constant (F := Ideal) S_ .f32 0x3F800000#32))

/-- One over the in-degree floored at one. -/
def inv (d : C S640000 .i32) : FVec Ideal S50000 .f32 :=
  Host.divf (F := Ideal) (broadcastInDim S50000 ![] bcast_S_S50000 (constant (F := Ideal) S_ .f32 0x3F800000#32))
    (maximumf (F := Ideal) (cnt d) (broadcastInDim S50000 ![] bcast_S_S50000 (constant (F := Ideal) S_ .f32 0x3F800000#32)))

/-- A matrix scaled row by row. -/
def scale (a : FVec Ideal S50000x128 .f32) (v : FVec Ideal S50000 .f32) : FVec Ideal S50000x128 .f32 :=
  mulf (F := Ideal) a (broadcastInDim S50000x128 ![0, 1] bcast_S50000x1_S50000x128_0_1 (broadcastInDim S50000x1 ![0] bcast_S50000_S50000x1_0 v))

section Stretch0
variable (W : Valuation τ sig (Elt Ideal))

theorem s0_v24 : after (hostOps0 (F := Ideal)) W (Proc.devRef .tc main_v24)
    = scale (agg (dst (W (Proc.devRef .tc main_arg1))) (src (W (Proc.devRef .tc main_arg1))) (W (Proc.devRef .tc main_arg0))) (inv (dst (W (Proc.devRef .tc main_arg1)))) := by
  dsimp only [hostOps0]; after_results_simp; rfl
theorem s0_v1 : after (hostOps0 (F := Ideal)) W (Proc.devRef .tc main_v1) = src (W (Proc.devRef .tc main_arg1)) := by
  dsimp only [hostOps0]; after_results_simp; rfl
theorem s0_v3 : after (hostOps0 (F := Ideal)) W (Proc.devRef .tc main_v3) = dst (W (Proc.devRef .tc main_arg1)) := by
  dsimp only [hostOps0]; after_results_simp; rfl
theorem s0_v11 : after (hostOps0 (F := Ideal)) W (Proc.devRef .tc main_v11) = inv (dst (W (Proc.devRef .tc main_arg1))) := by
  dsimp only [hostOps0]; after_results_simp; rfl
theorem s0_v25 : after (hostOps0 (F := Ideal)) W (Proc.devRef .tc main_v25)
    = transpose S128x128 [1, 0] (W (Proc.devRef .tc main_arg2)) transposes_S128x128_S128x128_1_0 := by
  dsimp only [hostOps0]; after_results_simp
theorem s0_v26 : after (hostOps0 (F := Ideal)) W (Proc.devRef .tc main_v26)
    = transpose S128x128 [1, 0] (W (Proc.devRef .tc main_arg4)) transposes_S128x128_S128x128_1_0 := by
  dsimp only [hostOps0]; after_results_simp
theorem s0_v27 : after (hostOps0 (F := Ideal)) W (Proc.devRef .tc main_v27)
    = fun i => shapeCast main_v27.ty.shape (W (Proc.devRef .tc main_arg3)) shapeCasts_S128_S1x128 i := by
  dsimp only [hostOps0]; after_results_simp
theorem s0_arg0 : after (hostOps0 (F := Ideal)) W (Proc.devRef .tc main_arg0) = W (Proc.devRef .tc main_arg0) := by
  dsimp only [hostOps0]; after_results_simp

end Stretch0

section Stretch1
variable (W : Valuation τ sig (Elt Ideal))

theorem s1_v41 : after (hostOps1 (F := Ideal)) W (Proc.devRef .tc main_v41)
    = scale (agg (W (Proc.devRef .tc main_v3)) (W (Proc.devRef .tc main_v1)) (W (Proc.devRef .tc main_v28))) (W (Proc.devRef .tc main_v11)) := by
  dsimp only [hostOps1]; after_results_simp; rfl
theorem s1_v28 : after (hostOps1 (F := Ideal)) W (Proc.devRef .tc main_v28) = W (Proc.devRef .tc main_v28) := by
  dsimp only [hostOps1]; after_results_simp
theorem s1_v42 : after (hostOps1 (F := Ideal)) W (Proc.devRef .tc main_v42)
    = transpose S128x64 [1, 0] (W (Proc.devRef .tc main_arg5)) transposes_S64x128_S128x64_1_0 := by
  dsimp only [hostOps1]; after_results_simp
theorem s1_v43 : after (hostOps1 (F := Ideal)) W (Proc.devRef .tc main_v43)
    = transpose S128x64 [1, 0] (W (Proc.devRef .tc main_arg7)) transposes_S64x128_S128x64_1_0 := by
  dsimp only [hostOps1]; after_results_simp
theorem s1_v44 : after (hostOps1 (F := Ideal)) W (Proc.devRef .tc main_v44)
    = fun i => shapeCast main_v44.ty.shape (W (Proc.devRef .tc main_arg6)) shapeCasts_S64_S1x64 i := by
  dsimp only [hostOps1]; after_results_simp

end Stretch1

end Cert.KernelIdeal.Host

end
-- ==== Proof.Spec.lean ====
/-
  Two layers of mean-aggregating graph convolution followed by a row-wise log-softmax, as functions of the argument
  arrays, entry by entry, on the extended reals.

  A node's aggregate is the sum of its in-neighbours' feature rows; the aggregate is turned into a mean by the
  reciprocal of the node's in-degree, floored at one.  How the aggregate and the in-degree are computed from the edge
  list is not opened here: they enter as a function `agg` of the feature matrix and a vector `cnt`.  One layer is
  `mean · Wlᵀ + X · Wrᵀ + b`, the first followed by `max · 0`; the result pair is the second layer's output and its
  row-wise log-softmax, `(L − max L) − log Σ exp (L − max L)`.
-/
import Idealize.ShloMosaic.PureOps.Ideal
import Idealize.ShloMosaic.Lib.ValueIdx

noncomputable section

namespace Cert.Sage

open Idealize.ShloMosaic Idealize.ShloMosaic.ValueIdx
open scoped BigOperators

/-- The three float literals the programs use, at their exact values. -/
abbrev zero : EReal := Ideal.ofBits .f32 0x00000000#32
abbrev one : EReal := Ideal.ofBits .f32 0x3F800000#32
abbrev ninf : EReal := Ideal.ofBits .f32 0xFF800000#32

/-- A matrix from its entries. -/
def arr2 {n o : ℕ} (f : Fin n → Fin o → EReal) : FVec Ideal ⟨2, ![n, o]⟩ .f32 := fun i => f (i 0) (i 1)

theorem arr2_apply {n o : ℕ} (f : Fin n → Fin o → EReal) (r : Fin n) (j : Fin o) : arr2 f (ix2 r j) = f r j := rfl

/-- The reciprocal of a node's in-degree floored at one. -/
def invAt {n : ℕ} (cnt : FVec Ideal ⟨1, ![n]⟩ .f32) (r : Fin n) : EReal :=
  Ideal.div one (max (cnt (ix1 r)) one)

/-- A node's mean feature: its aggregate times the reciprocal of its floored in-degree. -/
def meanAt {n d : ℕ} (agg : FVec Ideal ⟨2, ![n, d]⟩ .f32) (cnt : FVec Ideal ⟨1, ![n]⟩ .f32) (r : Fin n) (k : Fin d) : EReal :=
  agg (ix2 r k) * invAt cnt r

/-- One layer's linear part at an entry: the mean branch plus the self branch, then the bias. The weights are stored
    output-major, `Wl (j, k)`. -/
def linAt {n d o : ℕ} (A X : FVec Ideal ⟨2, ![n, d]⟩ .f32) (Wl Wr : FVec Ideal ⟨2, ![o, d]⟩ .f32)
    (b : FVec Ideal ⟨1, ![o]⟩ .f32) (r : Fin n) (j : Fin o) : EReal :=
  ((∑ k : Fin d, A (ix2 r k) * Wl (ix2 j k)) + ∑ k : Fin d, X (ix2 r k) * Wr (ix2 j k)) + b (ix1 j)

/-- The largest entry of a row, as a fold of `max` from −∞. -/
def rowmaxAt {n o : ℕ} (L : FVec Ideal ⟨2, ![n, o]⟩ .f32) (r : Fin n) : EReal :=
  (Finset.univ : Finset (Fin o)).fold max ninf (fun q => L (ix2 r q))

/-- The log-softmax of a row at an entry: the entry less the row's maximum, less the log of the sum of the exponentials
    of the row so shifted. -/
def logpAt {n o : ℕ} (L : FVec Ideal ⟨2, ![n, o]⟩ .f32) (r : Fin n) (j : Fin o) : EReal :=
  (L (ix2 r j) - rowmaxAt L r) - Ideal.log (∑ q : Fin o, Ideal.exp (L (ix2 r q) - rowmaxAt L r))

section Net
variable {n d h o : ℕ}
variable (agg1 : FVec Ideal ⟨2, ![n, d]⟩ .f32 → FVec Ideal ⟨2, ![n, d]⟩ .f32)
variable (agg2 : FVec Ideal ⟨2, ![n, h]⟩ .f32 → FVec Ideal ⟨2, ![n, h]⟩ .f32)
variable (cnt : FVec Ideal ⟨1, ![n]⟩ .f32)
variable (x : FVec Ideal ⟨2, ![n, d]⟩ .f32)
variable (w1l w1r : FVec Ideal ⟨2, ![h, d]⟩ .f32) (b1 : FVec Ideal ⟨1, ![h]⟩ .f32)
variable (w2l w2r : FVec Ideal ⟨2, ![o, h]⟩ .f32) (b2 : FVec Ideal ⟨1, ![o]⟩ .f32)

/-- The first layer's mean features. -/
def mean1 : FVec Ideal ⟨2, ![n, d]⟩ .f32 := arr2 (meanAt (agg1 x) cnt)

/-- The hidden features: the first layer, then `max · 0`. -/
def hidden : FVec Ideal ⟨2, ![n, h]⟩ .f32 :=
  arr2 fun r j => max (linAt (mean1 agg1 cnt x) x w1l w1r b1 r j) zero

/-- The second layer's mean features, aggregated from the hidden ones. -/
def mean2 : FVec Ideal ⟨2, ![n, h]⟩ .f32 := arr2 (meanAt (agg2 (hidden agg1 cnt x w1l w1r b1)) cnt)

/-- The second layer's output. -/
def logits : FVec Ideal ⟨2, ![n, o]⟩ .f32 :=
  arr2 (linAt (mean2 agg1 agg2 cnt x w1l w1r b1) (hidden agg1 cnt x w1l w1r b1) w2l w2r b2)

/-- Its row-wise log-softmax. -/
def logp : FVec Ideal ⟨2, ![n, o]⟩ .f32 :=
  arr2 (logpAt (logits agg1 agg2 cnt x w1l w1r b1 w2l w2r b2))

end Net

end Cert.Sage

end
-- ==== Proof.KernelReads.lean ====
/-
  The host terms around the pallas_calls read at an entry: a matrix scaled row by row is the entry times the row's
  factor; the floored reciprocal at a node is one over the larger of its in-degree and one; a transposed weight matrix at
  (k, j) is the matrix at (j, k); the bias stood up as a one-row matrix at (0, j) is the bias at j.
-/
import proofs.«148079_j2370821947944_1_alg».proof.Proof.KernelHost
import proofs.«148079_j2370821947944_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Host

open Cert.KernelIdeal Cert.KernelIdeal.Gen

variable [Cert.KernelIdeal.Facts]

/-- A node's factor broadcast along its row. -/
theorem rowfactor_apply (v : FVec Ideal S50000 .f32) (r : Fin 50000) (k : Fin 128) :
    broadcastInDim S50000x128 ![0, 1] bcast_S50000x1_S50000x128_0_1 (broadcastInDim S50000x1 ![0] bcast_S50000_S50000x1_0 v) (ix2 r k)
      = v (ix1 r) :=
  (broadcastInDim_apply _ bcast_S50000x1_S50000x128_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans
  (broadcastInDim_apply _ bcast_S50000_S50000x1_0 v (ix2 r (0 : Fin 1)) (ix1 r) (fun a => match a with
    | ⟨0, _⟩ => by show r.val = if (50000 : Nat) = 1 then 0 else r.val; rw [if_neg (by decide)]))

/-- A matrix scaled row by row, at an entry. -/
theorem scale_apply (a : FVec Ideal S50000x128 .f32) (v : FVec Ideal S50000 .f32) (r : Fin 50000) (k : Fin 128) :
    scale a v (ix2 r k) = a (ix2 r k) * v (ix1 r) := by
  unfold scale
  rw [mulf_apply, rowfactor_apply]

/-- The literal one broadcast over the nodes. -/
theorem ones_apply (r : Fin 50000) :
    broadcastInDim S50000 ![] bcast_S_S50000 (constant (F := Ideal) S_ .f32 0x3F800000#32) (ix1 r) = Cert.Sage.one :=
  broadcastInDim_apply _ bcast_S_S50000 _ (ix1 r) ix0 (fun a => a.elim0)

/-- The floored reciprocal at a node. -/
theorem inv_apply (d : C S640000 .i32) (r : Fin 50000) :
    inv d (ix1 r) = Ideal.div Cert.Sage.one (max (cnt d (ix1 r)) Cert.Sage.one) := by
  unfold inv
  generalize cnt d = cv
  show Ideal.div (broadcastInDim S50000 ![] bcast_S_S50000 (constant (F := Ideal) S_ .f32 0x3F800000#32) (ix1 r))
      (max (cv (ix1 r)) (broadcastInDim S50000 ![] bcast_S_S50000 (constant (F := Ideal) S_ .f32 0x3F800000#32) (ix1 r))) = _
  rw [ones_apply]

/-- A transposed 128×128 weight matrix at (k, j). -/
theorem tr128_apply (w : FVec Ideal S128x128 .f32) (k j : Fin 128) :
    transpose S128x128 [1, 0] w transposes_S128x128_S128x128_1_0 (ix2 k j) = w (ix2 j k) :=
  transpose_apply [1, 0] w transposes_S128x128_S128x128_1_0 (ix2 k j) (ix2 j k) (fun b => match b with
    | ⟨0, _⟩ => rfl
    | ⟨1, _⟩ => rfl)

/-- A transposed 64×128 weight matrix at (k, j). -/
theorem tr64_apply (w : FVec Ideal S64x128 .f32) (k : Fin 128) (j : Fin 64) :
    transpose S128x64 [1, 0] w transposes_S64x128_S128x64_1_0 (ix2 k j) = w (ix2 j k) :=
  transpose_apply [1, 0] w transposes_S64x128_S128x64_1_0 (ix2 k j) (ix2 j k) (fun b => match b with
    | ⟨0, _⟩ => rfl
    | ⟨1, _⟩ => rfl)

/-- The 128-entry bias as a one-row matrix, at (0, j). -/
theorem row128_apply (b : FVec Ideal S128 .f32) (j : Fin 128) :
    shapeCast main_v27.ty.shape b shapeCasts_S128_S1x128 (ix2 (0 : Fin 1) j) = b (ix1 j) :=
  shapeCast_apply b shapeCasts_S128_S1x128 (ix2 (0 : Fin 1) j) (ix1 j) (by
    rw [Shape.rowMajor_val_two, Shape.rowMajor_val_one]
    show j.val = 0 * 128 + j.val
    omega)

/-- The 64-entry bias as a one-row matrix, at (0, j). -/
theorem row64_apply (b : FVec Ideal S64 .f32) (j : Fin 64) :
    shapeCast main_v44.ty.shape b shapeCasts_S64_S1x64 (ix2 (0 : Fin 1) j) = b (ix1 j) :=
  shapeCast_apply b shapeCasts_S64_S1x64 (ix2 (0 : Fin 1) j) (ix1 j) (by
    rw [Shape.rowMajor_val_two, Shape.rowMajor_val_one]
    show j.val = 0 * 64 + j.val
    omega)

end Cert.KernelIdeal.Host

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibRowMax.lean ====
/-
  A maximum along the rows of a matrix, read at an index.  A `vector.multi_reduction <maximumf>` over axis 1 of an
  [a, b] matrix of extended reals, from the accumulator word of −∞, has at p the fold of `max` from that word's value
  over the b columns of row p; stood up as an [a, 1] column (a keepdims maximum) it has that fold at (p, ·).
-/
import Idealize.ShloMosaic.Lib.Pipeline.Value
import Idealize.ShloMosaic.Lib.ValueIdx
import Idealize.ShloMosaic.Lib.ValueLayout
import Idealize.ShloMosaic.PureOps.Ideal.Laws
import proofs.«148079_j2370821947944_1_alg».proof.Proof.LibLayout

noncomputable section

namespace Cert.Lib.RowMax

open Idealize.ShloMosaic Idealize.ShloMosaic.ValueIdx

/-- The maximum over axis 1 of an [a, b] matrix, from the accumulator word of −∞: entry p is the fold of `max` over
    row p, started at that word's value. -/
theorem reduce_cols_max {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine Finset.fold_congr fun k _ => congrArg src (funext fun c => Fin.ext ?_)
  rw [h.lift_val]
  match c with
  | ⟨0, _⟩ => rfl
  | ⟨1, _⟩ => rfl

/-- The keepdims row maximum: the column of the maxima over axis 1, at (p, ·), is the fold of `max` over row p. -/
theorem rowmax_column {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ src 0xFF800000#32 h hφ hacc) hc (ix2 p u)
      = (Finset.univ : Finset (Fin b)).fold max (Ideal.ofBits .f32 0xFF800000#32) (fun k => src (ix2 p k)) :=
  (Cert.LibLayout.shapeCast_a_a1_apply _ hc p u).trans (reduce_cols_max src h hφ hacc p)

end Cert.Lib.RowMax

end
-- ==== Proof.LibRowSum.lean ====
/-
  A sum along the rows of a matrix, read at an index.  A `vector.multi_reduction <add>` over axis 1 of an [a, b]
  matrix of extended reals, from the zero accumulator, has at p the sum over the b columns of row p; stood up as an
  [a, 1] column (a keepdims sum) it has that sum at (p, ·).  The squared row norms ‖x_p‖² of a matrix are the case
  of the matrix multiplied entrywise by itself.
-/
import Idealize.ShloMosaic.Lib.Pipeline.Value
import Idealize.ShloMosaic.Lib.ValueIdx
import Idealize.ShloMosaic.Lib.ValueLayout
import Idealize.ShloMosaic.PureOps.Ideal.Laws
import proofs.«148079_j2370821947944_1_alg».proof.Proof.LibLayout

noncomputable section

namespace Cert.Lib.RowSum

open Idealize.ShloMosaic Idealize.ShloMosaic.ValueIdx

/-- The sum over axis 1 of an [a, b] matrix, from a zero accumulator: entry p is the sum of row p. -/
theorem reduce_cols {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun c => Fin.ext ?_)
  rw [h.lift_val]
  match c with
  | ⟨0, _⟩ => rfl
  | ⟨1, _⟩ => rfl

/-- The keepdims row sum: the column of the sums over axis 1, at (p, ·), is the sum of row p. -/
theorem rowsum_column {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.LibLayout.shapeCast_a_a1_apply _ hc p u).trans (reduce_cols src h hφ hacc p)

end Cert.Lib.RowSum

end
-- ==== Proof.LibVecIx2.lean ====
/-
  Vector layout operations of a kernel body read at a rank-2 index built from its two coordinates: a block of a
  matrix (one column, one row, one entry), a column or a row broadcast over a matrix, an entry extracted as a scalar,
  a sum over the rows of a matrix, and a one-row matrix made from a vector. Each is stated in closed form (no side
  condition), so that a rewriting pass can push an index through a long chain of such operations.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.VecIx2

open Idealize.ShloMosaic Idealize.ShloMosaic.ValueIdx

variable {α : Type}

theorem slices_lt0 {a b m n o0 o1 : ℕ} (h : (⟨2, ![a, b]⟩ : Shape).Slices ![o0, o1] ⟨2, ![m, n]⟩) (hm : 0 < m) : o0 < a := by
  obtain ⟨_, h2⟩ := h
  have := h2 (0 : Fin 2)
  have e : (![o0, o1] : Fin 2 → ℕ) 0 + m ≤ a := this
  have e' : o0 + m ≤ a := e
  omega

theorem slices_lt1 {a b m n o0 o1 : ℕ} (h : (⟨2, ![a, b]⟩ : Shape).Slices ![o0, o1] ⟨2, ![m, n]⟩) (hn : 0 < n) : o1 < b := by
  obtain ⟨_, h2⟩ := h
  have := h2 (1 : Fin 2)
  have e : (![o0, o1] : Fin 2 → ℕ) 1 + n ≤ b := this
  have e' : o1 + n ≤ b := e
  omega

/-- Column `o` of a matrix, as an [a, 1] block: entry (p, ·) is the matrix at (p, o). -/
theorem slice_col {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, slices_lt1 h Nat.one_pos⟩) :=
  extractStridedSlice_apply _ _ _ _ _ (fun ax => by
    match ax with
    | ⟨0, _⟩ => exact (Nat.zero_add _).symm
    | ⟨1, _⟩ => show o = o + u.val; omega)

/-- Row `o` of a matrix, as a [1, b] block: entry (·, q) is the matrix at (o, q). -/
theorem slice_row {a b : ℕ} (o : ℕ) (X : (⟨2, ![a, b]⟩ : Shape).Idx → α)
    (h : (⟨2, ![a, b]⟩ : Shape).Slices ![o, 0] ⟨2, ![1, b]⟩) (u : Fin 1) (q : Fin b) :
    extractStridedSlice ⟨2, ![1, b]⟩ ![o, 0] X h (ix2 u q) = X (ix2 ⟨o, slices_lt0 h Nat.one_pos⟩ q) :=
  extractStridedSlice_apply _ _ _ _ _ (fun ax => by
    match ax with
    | ⟨0, _⟩ => show o = o + u.val; omega
    | ⟨1, _⟩ => exact (Nat.zero_add _).symm)

/-- Entry (o0, o1) of a matrix, as a [1, 1] block. -/
theorem slice_11 {a b : ℕ} (o0 o1 : ℕ) (X : (⟨2, ![a, b]⟩ : Shape).Idx → α)
    (h : (⟨2, ![a, b]⟩ : Shape).Slices ![o0, o1] ⟨2, ![1, 1]⟩) (u v : Fin 1) :
    extractStridedSlice ⟨2, ![1, 1]⟩ ![o0, o1] X h (ix2 u v)
      = X (ix2 ⟨o0, slices_lt0 h Nat.one_pos⟩ ⟨o1, slices_lt1 h Nat.one_pos⟩) :=
  extractStridedSlice_apply _ _ _ _ _ (fun ax => by
    match ax with
    | ⟨0, _⟩ => show o0 = o0 + u.val; omega
    | ⟨1, _⟩ => show o1 = o1 + v.val; omega)

/-- The one entry of a [1, 1] matrix extracted as a scalar. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An [a, 1] column broadcast over [a, b]: entry (p, q) is the column at p. -/
theorem bcast_col {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A sum over the rows of an [a, b] matrix of extended reals, from a zero accumulator: entry q is the column's sum. -/
theorem reduce_rows {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum, with the accumulator's neutrality stated on the words themselves (as a printed program states it). -/
theorem reduce_rows' {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  reduce_rows src h hφ hacc q

end Cert.Lib.VecIx2

end
-- ==== Proof.BodyRead.lean ====
/-
  The arithmetic of the two kernel bodies read at one entry, on the extended reals.

  The first body computes, for a block of 5000 rows, `max (A · Wl + X · Wr + b, 0)`; the second computes
  `L = A · Wl + X · Wr + b` and the row-wise log-softmax `(L − max L) − log Σ exp (L − max L)`.  On the extended reals
  every operation is exact and a change of float format is the identity, so each entry of a body's result is the
  closed form below: a matrix product at (p, q) is the sum over the contracted coordinate, a bias row broadcast down
  the rows is the bias at q, a keepdims row reduction broadcast along the row is the fold over row p.
-/
import proofs.«148079_j2370821947944_1_alg».proof.Proof.Gen.KernelIdeal.Skeleton
import proofs.«148079_j2370821947944_1_alg».proof.Proof.Spec
import proofs.«148079_j2370821947944_1_alg».proof.Proof.LibPlainDot
import proofs.«148079_j2370821947944_1_alg».proof.Proof.LibRowMax
import proofs.«148079_j2370821947944_1_alg».proof.Proof.LibRowSum
import proofs.«148079_j2370821947944_1_alg».proof.Proof.LibLayout
import proofs.«148079_j2370821947944_1_alg».proof.Proof.LibVecIx2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyRead

open Idealize.ShloMosaic Idealize.ShloMosaic.ValueIdx Cert.KernelIdeal
open scoped BigOperators

/-- One layer's linear part over matrices: two plain products into zero splats, added, plus a bias row broadcast down
    the rows.  At (p, q): the two sums over the contracted coordinate, plus the bias at q. -/
theorem lin_apply {M K N : ℕ} {φ₁ φ₂ : FTy} (A X : FVec Ideal ⟨2, ![M, K]⟩ φ₁) (Wl Wr : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (addf (matmul (DotDims.plain M K N) none A Wl (constant (F := Ideal) ⟨2, ![M, N]⟩ .f32 0x00000000#32))
               (matmul (DotDims.plain M K N) none X Wr (constant (F := Ideal) ⟨2, ![M, N]⟩ .f32 0x00000000#32)))
         (broadcastTo ⟨2, ![M, N]⟩ b hb) (ix2 p q)
      = ((∑ k : Fin K, A (ix2 p k) * Wl (ix2 k q)) + ∑ k : Fin K, X (ix2 p k) * Wr (ix2 k q)) + b (ix2 (0 : Fin 1) q) := by
  rw [addf_apply, addf_apply, Cert.PlainDot.matmul_zero_plain_apply, Cert.PlainDot.matmul_zero_plain_apply,
    broadcastTo_1b_ab_apply]

variable [Cert.KernelIdeal.Facts]

/-- The printed contraction records are the plain M×K by K×N product. -/
theorem dot128_plain : dot_S5000x128_S128x128_S5000x128_1_0_0_1_n_n = DotDims.plain 5000 128 128 := rfl
theorem dot64_plain : dot_S5000x128_S128x64_S5000x64_1_0_0_1_n_n = DotDims.plain 5000 128 64 := rfl

/-- The second body's first result at (p, q): the layer's linear part. -/
theorem pay1_apply (a x : Vec Ideal S5000x128 .f32) (wl wr : Vec Ideal S128x64 .f32) (b : Vec Ideal S1x64 .f32)
    (p : Fin 5000) (q : Fin 64) :
    Gen.k1_pay1 (F := Ideal) a x wl wr b (ix2 p q)
      = ((∑ k : Fin 128, a (ix2 p k) * wl (ix2 k q)) + ∑ k : Fin 128, x (ix2 p k) * wr (ix2 k q)) + b (ix2 0 q) := by
  unfold Gen.k1_pay1
  simp only [shapeCast_self, dot64_plain]
  exact lin_apply (truncf .bf16 a _) (truncf .bf16 x _) (truncf .bf16 wl _) (truncf .bf16 wr _) b _ p q

/-- The first body's result at (p, q): the layer's linear part, then the maximum with zero. -/
theorem pay0_apply (a x : Vec Ideal S5000x128 .f32) (wl wr : Vec Ideal S128x128 .f32) (b : Vec Ideal S1x128 .f32)
    (p : Fin 5000) (q : Fin 128) :
    Gen.k0_pay1 (F := Ideal) a x wl wr b (ix2 p q)
      = max (((∑ k : Fin 128, a (ix2 p k) * wl (ix2 k q)) + ∑ k : Fin 128, x (ix2 p k) * wr (ix2 k q)) + b (ix2 0 q))
          Cert.Sage.zero := by
  unfold Gen.k0_pay1
  simp only [shapeCast_self, dot128_plain]
  rw [maximumf_apply]
  exact congrArg₂ max
    (lin_apply (truncf .bf16 a _) (truncf .bf16 x _) (truncf .bf16 wl _) (truncf .bf16 wr _) b _ p q) rfl

/-- A matrix less its keepdims row maximum broadcast along the rows: at (p, q), the entry less the largest entry of
    row p. -/
theorem shifted_apply {m n : ℕ} (L : FVec Ideal ⟨2, ![m, n]⟩ .f32)
    (hr : (⟨2, ![m, n]⟩ : Shape).Reduces [1] ⟨1, ![m]⟩) (hφ : FKind.Formats .f32)
    (hacc : (0xFF800000#32 : BitVec 32) = FKind.maximumf.neutral .f32 hφ)
    (hc : (⟨1, ![m]⟩ : Shape).ShapeCasts ⟨2, ![m, 1]⟩) (hb : (⟨2, ![m, 1]⟩ : Shape).Broadcasts ⟨2, ![m, n]⟩)
    (p : Fin m) (q : Fin n) :
    subf L (broadcastTo ⟨2, ![m, n]⟩
        (shapeCast ⟨2, ![m, 1]⟩ (multiReduction .maximumf [1] ⟨1, ![m]⟩ L 0xFF800000#32 hr hφ hacc) hc) hb) (ix2 p q)
      = L (ix2 p q) - Cert.Sage.rowmaxAt L p := by
  rw [subf_apply, Cert.Lib.VecIx2.bcast_col, Cert.Lib.RowMax.rowmax_column]
  rfl

/-- A matrix less the log of its keepdims row sum of exponentials broadcast along the rows: at (p, q), the entry less
    the log of the sum of the exponentials of row p. -/
theorem lessLogSumExp_apply {m n : ℕ} (S : FVec Ideal ⟨2, ![m, n]⟩ .f32)
    (hr : (⟨2, ![m, n]⟩ : Shape).Reduces [1] ⟨1, ![m]⟩) (hφ : FKind.Formats .f32)
    (hacc : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, n]⟩)
    (p : Fin m) (q : Fin n) :
    subf S (broadcastTo ⟨2, ![m, n]⟩
        (Idealize.ShloMosaic.log (shapeCast ⟨2, ![m, 1]⟩
          (multiReduction .add [1] ⟨1, ![m]⟩ (Idealize.ShloMosaic.exp S) 0x00000000#32 hr hφ hacc) hc)) hb) (ix2 p q)
      = S (ix2 p q) - Ideal.log (∑ k : Fin n, Ideal.exp (S (ix2 p k))) := by
  rw [subf_apply, Cert.Lib.VecIx2.bcast_col]
  show S (ix2 p q) - Ideal.log (shapeCast ⟨2, ![m, 1]⟩
      (multiReduction .add [1] ⟨1, ![m]⟩ (Idealize.ShloMosaic.exp S) 0x00000000#32 hr hφ hacc) hc (ix2 p (0 : Fin 1))) = _
  rw [Cert.Lib.RowSum.rowsum_column]
  rfl

/-- The second body's second result at (p, q): the row-wise log-softmax of its first result. -/
theorem pay2_apply (a x : Vec Ideal S5000x128 .f32) (wl wr : Vec Ideal S128x64 .f32) (b : Vec Ideal S1x64 .f32)
    (p : Fin 5000) (q : Fin 64) :
    Gen.k1_pay2 (F := Ideal) a x wl wr b (ix2 p q) = Cert.Sage.logpAt (Gen.k1_pay1 (F := Ideal) a x wl wr b) p q := by
  unfold Gen.k1_pay2
  refine (lessLogSumExp_apply _ _ _ _ _ _ p q).trans ?_
  unfold Cert.Sage.logpAt
  exact congrArg₂ (· - ·) (shifted_apply _ _ _ _ _ _ p q)
    (congrArg Ideal.log (Finset.sum_congr rfl fun k _ => congrArg Ideal.exp (shifted_apply _ _ _ _ _ _ p k)))

end Cert.KernelIdeal.BodyRead

end
-- ==== Proof.Region0Value.lean ====
/-
  The first pallas_call as one function of the arrays it finds.  Its grid has ten points; point t stages rows
  5000·t … 5000·t + 4999 of the mean features and of the node features, the two weight matrices and the bias row whole,
  and writes back the same rows of the output.  An entry (r, j) of the output depends on row r of the two row-blocked
  operands only, so what point t writes back is rows 5000·t … of ONE whole-array function, and the ten blocks tile the
  50000 rows: the output array ends holding that function.
-/
import proofs.«148079_j2370821947944_1_alg».proof.Proof.Gen.KernelIdeal.Frame
import proofs.«148079_j2370821947944_1_alg».proof.Proof.BodyRead
import proofs.«148079_j2370821947944_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer with the weights stored input-major and the bias as a row: entry (r, j) is
    `max ((Σ_k A (r,k) · Wl (k,j) + Σ_k X (r,k) · Wr (k,j)) + b (0,j)) 0`. -/
def G (A X : S50000x128.Idx → EReal) (Wl Wr : S128x128.Idx → EReal) (b : S1x128.Idx → EReal) : S50000x128.Idx → EReal :=
  fun i => max (((∑ k : Fin 128, A (ix2 (i 0) k) * Wl (ix2 k (i 1))) + ∑ k : Fin 128, X (ix2 (i 0) k) * Wr (ix2 k (i 1))) + b (ix2 0 (i 1))) Cert.Sage.zero

/-- The body's value at an entry of a block is `G` at the array entry whose row holds the block's row. -/
theorem point (x0 x1 : Vec Ideal S5000x128 .f32) (A X : S50000x128.Idx → EReal) (Wl Wr : S128x128.Idx → EReal) (b : S1x128.Idx → EReal)
    (p : Fin 5000) (q : Fin 128) (i : S50000x128.Idx) (hq : i 1 = q)
    (h0 : ∀ k : Fin 128, x0 (ix2 p k) = A (ix2 (i 0) k)) (h1 : ∀ k : Fin 128, x1 (ix2 p k) = X (ix2 (i 0) k)) :
    k0_pay1 (F := Ideal) x0 x1 Wl Wr b (ix2 p q) = G A X Wl Wr b i := by
  rw [Cert.KernelIdeal.BodyRead.pay0_apply]
  unfold G
  rw [hq]
  simp only [h0, h1]

/-- The printed index maps over the grid: the row-blocked windows sit at block row t, everything else at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A whole-array window's block is the array. -/
theorem blk2 (c : Dev nD) (t : Fin cfg0.N) : (iblk0 V c 2 t : S128x128.Idx → EReal) = V c main_v25 := by
  obtain ⟨-, -, -, -, e0, e1, -⟩ := idx_facts t
  funext y
  show V c main_v25 (((cfg0.win 2).blk t).view.emb y) = V c main_v25 y
  refine congrArg (V c main_v25) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem blk4 (c : Dev nD) (t : Fin cfg0.N) : (iblk0 V c 4 t : S128x128.Idx → EReal) = V c main_v26 := by
  obtain ⟨-, -, -, -, -, -, -, -, e0, e1, -⟩ := idx_facts t
  funext y
  show V c main_v26 (((cfg0.win 4).blk t).view.emb y) = V c main_v26 y
  refine congrArg (V c main_v26) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem blk3 (c : Dev nD) (t : Fin cfg0.N) : (iblk0 V c 3 t : S1x128.Idx → EReal) = V c main_v27 := by
  obtain ⟨-, -, -, -, -, -, e0, e1, -⟩ := idx_facts t
  funext y
  show V c main_v27 (((cfg0.win 3).blk t).view.emb y) = V c main_v27 y
  refine congrArg (V c main_v27) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What point t writes back is block t of `G` of the arrays as the call finds them. -/
theorem flushed_eq (c : Dev nD) (t : Fin cfg0.N) :
    (dat0 V c).flushed 5 t = ((cfg0.win 5).blk t).view.read (Elt Ideal)
      (G (V c main_v24) (V c main_arg0) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [blk2 V c t, blk4 V c t, blk3 V c t]
  obtain ⟨a0, a1, b0, b1, -, -, -, -, -, -, o0, o1⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (V c main_v25) (V c main_v26) (V c main_v27) (ix2 p q)
    = G (V c main_v24) (V c main_arg0) (V c main_v25) (V c main_v26) (V c main_v27) (((cfg0.win 5).blk t).view.emb (ix2 p q))
  refine point (iblk0 V c 0 t) (iblk0 V c 1 t) _ _ _ _ _ p q _ ?_ (fun k => ?_) (fun k => ?_)
  · apply Fin.ext
    show win0_5.index t (1 : Fin 2) * 128 + 1 * q.val = q.val
    omega
  · show V c main_v24 (((cfg0.win 0).blk t).view.emb (ix2 p k)) = V c main_v24 _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Row r lies in the block of point r / 5000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, -, -, -, -, -, -, o0, o1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the call. -/
theorem final (c : Dev nD) :
    (dat0 V c).arrAt 5 cfg0.N = G (V c main_v24) (V c main_arg0) (V c main_v25) (V c main_v26) (V c main_v27) :=
  (dat0 V c).arrAt_eq_of_cover 5 _ (fun t _ => flushed_eq V c t) cover

end Cert.KernelIdeal.Region0

end
-- ==== Proof.Region1Value.lean ====
/-
  The second pallas_call as two functions of the arrays it finds.  Its grid has ten points; point t stages rows
  5000·t … 5000·t + 4999 of the mean features and of the hidden features, the two weight matrices and the bias row
  whole, and writes back the same rows of its two outputs: the layer's linear part L, and the row-wise log-softmax of
  L.  An entry (r, j) of L depends on row r of the two row-blocked operands only, and an entry (r, j) of the
  log-softmax on row r of L only, so what point t writes back is rows 5000·t … of ONE whole-array function for each
  output, and the ten blocks tile the 50000 rows: each output array ends holding its function.
-/
import proofs.«148079_j2370821947944_1_alg».proof.Proof.Gen.KernelIdeal.Frame
import proofs.«148079_j2370821947944_1_alg».proof.Proof.BodyRead
import proofs.«148079_j2370821947944_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's linear part with the weights stored input-major and the bias as a row: entry (r, j) is
    `(Σ_k A (r,k) · Wl (k,j) + Σ_k X (r,k) · Wr (k,j)) + b (0,j)`. -/
def Glin (A X : S50000x128.Idx → EReal) (Wl Wr : S128x64.Idx → EReal) (b : S1x64.Idx → EReal) : S50000x64.Idx → EReal :=
  fun i => ((∑ k : Fin 128, A (ix2 (i 0) k) * Wl (ix2 k (i 1))) + ∑ k : Fin 128, X (ix2 (i 0) k) * Wr (ix2 k (i 1))) + b (ix2 0 (i 1))

/-- Its row-wise log-softmax. -/
def GP (A X : S50000x128.Idx → EReal) (Wl Wr : S128x64.Idx → EReal) (b : S1x64.Idx → EReal) : S50000x64.Idx → EReal :=
  fun i => Cert.Sage.logpAt (Glin A X Wl Wr b) (i 0) (i 1)

/-- A row's log-softmax depends on that row only: two matrices that agree on a row of each have the same log-softmax
    along it. -/
theorem logpAt_congr {n n' o : ℕ} (L : FVec Ideal ⟨2, ![n, o]⟩ .f32) (L' : FVec Ideal ⟨2, ![n', o]⟩ .f32)
    (r : Fin n) (r' : Fin n') (h : ∀ q : Fin o, L (ix2 r q) = L' (ix2 r' q)) (j : Fin o) :
    Cert.Sage.logpAt L r j = Cert.Sage.logpAt L' r' j := by
  unfold Cert.Sage.logpAt Cert.Sage.rowmaxAt
  simp only [h]

/-- The body's first value at an entry of a block is `Glin` at the array entry whose row holds the block's row. -/
theorem pointL (x0 x1 : Vec Ideal S5000x128 .f32) (A X : S50000x128.Idx → EReal) (Wl Wr : S128x64.Idx → EReal) (b : S1x64.Idx → EReal)
    (p : Fin 5000) (q : Fin 64) (i : S50000x64.Idx) (hq : i 1 = q)
    (h0 : ∀ k : Fin 128, x0 (ix2 p k) = A (ix2 (i 0) k)) (h1 : ∀ k : Fin 128, x1 (ix2 p k) = X (ix2 (i 0) k)) :
    k1_pay1 (F := Ideal) x0 x1 Wl Wr b (ix2 p q) = Glin A X Wl Wr b i := by
  rw [Cert.KernelIdeal.BodyRead.pay1_apply]
  unfold Glin
  rw [hq]
  simp only [h0, h1]

/-- The body's second value at an entry of a block is `GP` at that array entry: row p of the block's first value is
    row (i 0) of `Glin`, entry by entry, and the log-softmax reads that row only. -/
theorem pointP (x0 x1 : Vec Ideal S5000x128 .f32) (A X : S50000x128.Idx → EReal) (Wl Wr : S128x64.Idx → EReal) (b : S1x64.Idx → EReal)
    (p : Fin 5000) (q : Fin 64) (i : S50000x64.Idx) (hq : i 1 = q)
    (h0 : ∀ k : Fin 128, x0 (ix2 p k) = A (ix2 (i 0) k)) (h1 : ∀ k : Fin 128, x1 (ix2 p k) = X (ix2 (i 0) k)) :
    k1_pay2 (F := Ideal) x0 x1 Wl Wr b (ix2 p q) = GP A X Wl Wr b i := by
  rw [Cert.KernelIdeal.BodyRead.pay2_apply]
  unfold GP
  rw [hq]
  exact logpAt_congr (k1_pay1 (F := Ideal) x0 x1 Wl Wr b) (Glin A X Wl Wr b) p (i 0)
    (fun q' => pointL x0 x1 A X Wl Wr b p q' (ix2 (i 0) q') rfl h0 h1) q

/-- The printed index maps over the grid: the row-blocked windows sit at block row t, everything else at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- A whole-array window's block is the array. -/
theorem blk2 (c : Dev nD) (t : Fin cfg1.N) : (iblk1 V c 2 t : S128x64.Idx → EReal) = V c main_v42 := by
  obtain ⟨-, -, -, -, e0, e1, -⟩ := idx_facts t
  funext y
  show V c main_v42 (((cfg1.win 2).blk t).view.emb y) = V c main_v42 y
  refine congrArg (V c main_v42) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega
theorem blk4 (c : Dev nD) (t : Fin cfg1.N) : (iblk1 V c 4 t : S128x64.Idx → EReal) = V c main_v43 := by
  obtain ⟨-, -, -, -, -, -, -, -, e0, e1, -⟩ := idx_facts t
  funext y
  show V c main_v43 (((cfg1.win 4).blk t).view.emb y) = V c main_v43 y
  refine congrArg (V c main_v43) (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega
theorem blk3 (c : Dev nD) (t : Fin cfg1.N) : (iblk1 V c 3 t : S1x64.Idx → EReal) = V c main_v44 := by
  obtain ⟨-, -, -, -, -, -, e0, e1, -⟩ := idx_facts t
  funext y
  show V c main_v44 (((cfg1.win 3).blk t).view.emb y) = V c main_v44 y
  refine congrArg (V c main_v44) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- What point t writes back to the first output is block t of `Glin` of the arrays as the call finds them. -/
theorem flushed_eq5 (c : Dev nD) (t : Fin cfg1.N) :
    (dat1 V c).flushed 5 t = ((cfg1.win 5).blk t).view.read (Elt Ideal)
      (Glin (V c main_v41) (V c main_v28) (V c main_v42) (V c main_v43) (V c main_v44)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  rw [blk2 V c t, blk4 V c t, blk3 V c t]
  obtain ⟨a0, a1, b0, b1, -, -, -, -, -, -, o0, o1, -, -⟩ := idx_facts t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (V c main_v42) (V c main_v43) (V c main_v44) (ix2 p q)
    = Glin (V c main_v41) (V c main_v28) (V c main_v42) (V c main_v43) (V c main_v44) (((cfg1.win 5).blk t).view.emb (ix2 p q))
  refine pointL (iblk1 V c 0 t) (iblk1 V c 1 t) _ _ _ _ _ p q _ ?_ (fun k => ?_) (fun k => ?_)
  · apply Fin.ext
    show win1_5.index t (1 : Fin 2) * 64 + 1 * q.val = q.val
    omega
  · show V c main_v41 (((cfg1.win 0).blk t).view.emb (ix2 p k)) = V c main_v41 _
    refine congrArg (V c main_v41) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · show V c main_v28 (((cfg1.win 1).blk t).view.emb (ix2 p k)) = V c main_v28 _
    refine congrArg (V c main_v28) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega

/-- What point t writes back to the second output is block t of `GP` of the arrays as the call finds them. -/
theorem flushed_eq6 (c : Dev nD) (t : Fin cfg1.N) :
    (dat1 V c).flushed 6 t = ((cfg1.win 6).blk t).view.read (Elt Ideal)
      (GP (V c main_v41) (V c main_v28) (V c main_v42) (V c main_v43) (V c main_v44)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x64) hz, View.ld_unit_zero (S := S1x64) hz]
  rw [blk2 V c t, blk4 V c t, blk3 V c t]
  obtain ⟨a0, a1, b0, b1, -, -, -, -, -, -, -, -, o0, o1⟩ := idx_facts t
  funext j
  obtain ⟨p, q, rfl⟩ : ∃ (p : Fin 5000) (q : Fin 64), j = ix2 p q := ⟨j 0, j 1, eq_ix2 j⟩
  show k1_pay2 (F := Ideal) (iblk1 V c 0 t) (iblk1 V c 1 t) (V c main_v42) (V c main_v43) (V c main_v44) (ix2 p q)
    = GP (V c main_v41) (V c main_v28) (V c main_v42) (V c main_v43) (V c main_v44) (((cfg1.win 6).blk t).view.emb (ix2 p q))
  refine pointP (iblk1 V c 0 t) (iblk1 V c 1 t) _ _ _ _ _ p q _ ?_ (fun k => ?_) (fun k => ?_)
  · apply Fin.ext
    show win1_6.index t (1 : Fin 2) * 64 + 1 * q.val = q.val
    omega
  · show V c main_v41 (((cfg1.win 0).blk t).view.emb (ix2 p k)) = V c main_v41 _
    refine congrArg (V c main_v41) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · show V c main_v28 (((cfg1.win 1).blk t).view.emb (ix2 p k)) = V c main_v28 _
    refine congrArg (V c main_v28) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega

/-- An index of the array is in point t's block iff each coordinate is in the block's range on its axis. -/
theorem mem_blk5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45_0).slice (win1_5.rect t)).set ↔ _
  rw [View.set_slice_whole, Rect.mem_set_unit]
  exact Iff.rfl

/-- Row r lies in the block of point r / 5000. -/
theorem cover5 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, o0, o1, -, -⟩ := idx_facts t
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- An index of the array is in point t's block iff each coordinate is in the block's range on its axis. -/
theorem mem_blk6 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v45_1).slice (win1_6.rect t)).set ↔ _
  rw [View.set_slice_whole, Rect.mem_set_unit]
  exact Iff.rfl

/-- Row r lies in the block of point r / 5000. -/
theorem cover6 (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, -, -, o0, o1⟩ := idx_facts t
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The first output array after the call. -/
theorem final5 (c : Dev nD) :
    (dat1 V c).arrAt 5 cfg1.N = Glin (V c main_v41) (V c main_v28) (V c main_v42) (V c main_v43) (V c main_v44) :=
  (dat1 V c).arrAt_eq_of_cover 5 _ (fun t _ => flushed_eq5 V c t) cover5

/-- The second output array after the call. -/
theorem final6 (c : Dev nD) :
    (dat1 V c).arrAt 6 cfg1.N = GP (V c main_v41) (V c main_v28) (V c main_v42) (V c main_v43) (V c main_v44) :=
  (dat1 V c).arrAt_eq_of_cover 6 _ (fun t _ => flushed_eq6 V c t) cover6

end Cert.KernelIdeal.Region1

end
-- ==== Proof.KernelLayers.lean ====
/-
  The kernel's layers are the specification's.  The first pallas_call's whole-array function, given the scaled
  neighbour sum of the node features, the node features, the transposed weights and the bias row, is the hidden layer;
  the second's, given the same of the hidden layer, is the second layer's output, and its row-wise log-softmax is the
  specification's.  Entry by entry: a scaled row is the aggregate times the floored reciprocal, a transposed weight at
  (k, j) is the weight at (j, k), the bias row at (0, j) is the bias at j.
-/
import proofs.«148079_j2370821947944_1_alg».proof.Proof.KernelReads
import proofs.«148079_j2370821947944_1_alg».proof.Proof.Region0Value
import proofs.«148079_j2370821947944_1_alg».proof.Proof.Region1Value

set_option maxRecDepth 16384

noncomputable section

open Idealize.ShloMosaic Idealize.ShloMosaic.TcCoe Idealize.SL.Sem Idealize.ShloMosaic.ValueIdx
open scoped BigOperators

namespace Cert.KernelIdeal.Layers

open Cert.KernelIdeal Cert.KernelIdeal.Gen Cert.KernelIdeal.Host

variable [Cert.KernelIdeal.Facts]

/-- The first layer's weights and bias as the first call stages them. -/
abbrev T128 (w : FVec Ideal S128x128 .f32) : FVec Ideal S128x128 .f32 := transpose S128x128 [1, 0] w transposes_S128x128_S128x128_1_0
abbrev R128 (b : FVec Ideal S128 .f32) : S1x128.Idx → EReal := fun i => shapeCast main_v27.ty.shape b shapeCasts_S128_S1x128 i
/-- The second layer's. -/
abbrev T64 (w : FVec Ideal S64x128 .f32) : FVec Ideal S128x64 .f32 := transpose S128x64 [1, 0] w transposes_S64x128_S128x64_1_0
abbrev R64 (b : FVec Ideal S64 .f32) : S1x64.Idx → EReal := fun i => shapeCast main_v44.ty.shape b shapeCasts_S64_S1x64 i

variable (A : FVec Ideal S50000x128 .f32 → FVec Ideal S50000x128 .f32) (cv iv : FVec Ideal S50000 .f32)
variable (hiv : ∀ r : Fin 50000, iv (ix1 r) = Ideal.div Cert.Sage.one (max (cv (ix1 r)) Cert.Sage.one))
variable (x : FVec Ideal S50000x128 .f32)
include hiv
variable (wl1 wr1 : FVec Ideal S128x128 .f32) (b1 : FVec Ideal S128 .f32)
variable (wl2 wr2 : FVec Ideal S64x128 .f32) (b2 : FVec Ideal S64 .f32)

/-- The first call's function of the host's terms is the hidden layer. -/
theorem hidden_eq :
    Region0.G (scale (A x) iv) x (T128 wl1) (T128 wr1) (R128 b1) = Cert.Sage.hidden A cv x wl1 wr1 b1 := by
  funext i
  obtain ⟨r, j, rfl⟩ : ∃ (r : Fin 50000) (j : Fin 128), i = ix2 r j := ⟨i 0, i 1, eq_ix2 i⟩
  show max (((∑ k : Fin 128, scale (A x) iv (ix2 r k) * transpose S128x128 [1, 0] wl1 transposes_S128x128_S128x128_1_0 (ix2 k j))
        + ∑ k : Fin 128, x (ix2 r k) * transpose S128x128 [1, 0] wr1 transposes_S128x128_S128x128_1_0 (ix2 k j))
        + shapeCast main_v27.ty.shape b1 shapeCasts_S128_S1x128 (ix2 (0 : Fin 1) j)) Cert.Sage.zero
     = max (((∑ k : Fin 128, (A x (ix2 r k) * Ideal.div Cert.Sage.one (max (cv (ix1 r)) Cert.Sage.one)) * wl1 (ix2 j k))
        + ∑ k : Fin 128, x (ix2 r k) * wr1 (ix2 j k)) + b1 (ix1 j)) Cert.Sage.zero
  simp only [scale_apply, hiv, row128_apply]
  refine congrArg (fun z => max z Cert.Sage.zero) (congrArg (fun z => z + b1 (ix1 j))
    (congrArg₂ (fun u v => u + v) (Finset.sum_congr rfl fun k _ => ?_) (Finset.sum_congr rfl fun k _ => ?_)))
  · rw [tr128_apply]
  · rw [tr128_apply]

/-- The second call's first output, given the hidden layer, is the second layer's output. -/
theorem logits_eq :
    Region1.Glin (scale (A (Cert.Sage.hidden A cv x wl1 wr1 b1)) iv) (Cert.Sage.hidden A cv x wl1 wr1 b1)
        (T64 wl2) (T64 wr2) (R64 b2)
      = Cert.Sage.logits A A cv x wl1 wr1 b1 wl2 wr2 b2 := by
  funext i
  obtain ⟨r, j, rfl⟩ : ∃ (r : Fin 50000) (j : Fin 64), i = ix2 r j := ⟨i 0, i 1, eq_ix2 i⟩
  show ((∑ k : Fin 128, scale (A (Cert.Sage.hidden A cv x wl1 wr1 b1)) iv (ix2 r k) * transpose S128x64 [1, 0] wl2 transposes_S64x128_S128x64_1_0 (ix2 k j))
        + ∑ k : Fin 128, Cert.Sage.hidden A cv x wl1 wr1 b1 (ix2 r k) * transpose S128x64 [1, 0] wr2 transposes_S64x128_S128x64_1_0 (ix2 k j))
        + shapeCast main_v44.ty.shape b2 shapeCasts_S64_S1x64 (ix2 (0 : Fin 1) j)
     = ((∑ k : Fin 128, (A (Cert.Sage.hidden A cv x wl1 wr1 b1) (ix2 r k) * Ideal.div Cert.Sage.one (max (cv (ix1 r)) Cert.Sage.one)) * wl2 (ix2 j k))
        + ∑ k : Fin 128, Cert.Sage.hidden A cv x wl1 wr1 b1 (ix2 r k) * wr2 (ix2 j k)) + b2 (ix1 j)
  simp only [scale_apply, hiv, row64_apply]
  refine congrArg (fun z => z + b2 (ix1 j))
    (congrArg₂ (fun u v => u + v) (Finset.sum_congr rfl fun k _ => ?_) (Finset.sum_congr rfl fun k _ => ?_))
  · rw [tr64_apply]
  · rw [tr64_apply]

/-- The second call's second output is the row-wise log-softmax of the first. -/
theorem logp_eq :
    Region1.GP (scale (A (Cert.Sage.hidden A cv x wl1 wr1 b1)) iv) (Cert.Sage.hidden A cv x wl1 wr1 b1)
        (T64 wl2) (T64 wr2) (R64 b2)
      = Cert.Sage.logp A A cv x wl1 wr1 b1 wl2 wr2 b2 := by
  unfold Region1.GP Cert.Sage.logp Cert.Sage.arr2
  rw [logits_eq A cv iv hiv]

end Cert.KernelIdeal.Layers

end
-- ==== Proof.KernelRun.lean ====
/-
  The idealized kernel's run with its two results named.  @main is four segments — the host operations before the first
  pallas_call, that call, the host operations between the calls, the second call — and after the last one every unscoped
  buffer holds the last boundary's contents `Gen.W4`: the arguments as launched, and each result array at what the second
  call's write-backs leave.  This is the frame's launch over the same segments with the two result buffers read off the
  final state beside the arguments.
-/
import proofs.«148079_j2370821947944_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result arrays at the last boundary's
    contents and the arguments as launched. -/
theorem run : θ_run defs (onTc (τ := τ) (main (F := F))) ⟨m, fun _ => 0, ρ⟩ (fun r => ∀ c : Dev nD,
      r.2.mem ((c.tc : Thread nD τ).loc main_v45_1) = W4 m ρ c (Proc.devRef .tc main_v45_1)
      ∧ r.2.mem ((c.tc : Thread nD τ).loc main_v45_0) = W4 m ρ c (Proc.devRef .tc main_v45_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45_1 (by decide)),
       h c _ (mem_uc main_v45_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunV

end
-- ==== Proof.KernelValue.lean ====
/-
  The idealized kernel's two results as the specification's functions of the arguments.  Walking back from the last
  boundary: the result arrays are what the second call's write-backs leave, the second call's whole-array functions of what
  the host stretch between the calls computed from the first call's output and from the first stretch's sources, targets
  and reciprocals; the first call's output is its whole-array function of what the first stretch computed from the
  arguments.  Put together these are the hidden layer, the second layer's output and its log-softmax.
-/
import proofs.«148079_j2370821947944_1_alg».proof.Proof.KernelLayers
import proofs.«148079_j2370821947944_1_alg».proof.Proof.KernelRun

set_option maxRecDepth 16384

noncomputable section

open Idealize.ShloMosaic Idealize.ShloMosaic.TcCoe Idealize.SL.Sem Idealize.ShloMosaic.ValueIdx Idealize.ShloMosaic.StableHlo

namespace Cert.KernelIdeal.ValueV

open Cert.KernelIdeal Cert.KernelIdeal.Gen Cert.KernelIdeal.Host Cert.KernelIdeal.Layers

variable [Cert.KernelIdeal.Facts]
variable (m : (ℓ : Loc nD τ sig) → Buf (Elt Ideal) ℓ) (ρ : Dev nD → PrngReg) (c : Dev nD)

/-- The edges' targets and sources and the in-degrees, from the edge-list argument. -/
abbrev D : C S640000 .i32 := dst (m ((c.tc : Thread nD τ).loc main_arg1))
abbrev S : C S640000 .i32 := src (m ((c.tc : Thread nD τ).loc main_arg1))

/-- The specification's three functions at this memory's arguments. -/
abbrev hiddenOf : FVec Ideal S50000x128 .f32 :=
  Cert.Sage.hidden (agg (D m c) (S m c)) (cnt (D m c)) (m ((c.tc : Thread nD τ).loc main_arg0))
    (m ((c.tc : Thread nD τ).loc main_arg2)) (m ((c.tc : Thread nD τ).loc main_arg4)) (m ((c.tc : Thread nD τ).loc main_arg3))
abbrev logitsOf : FVec Ideal S50000x64 .f32 :=
  Cert.Sage.logits (agg (D m c) (S m c)) (agg (D m c) (S m c)) (cnt (D m c)) (m ((c.tc : Thread nD τ).loc main_arg0))
    (m ((c.tc : Thread nD τ).loc main_arg2)) (m ((c.tc : Thread nD τ).loc main_arg4)) (m ((c.tc : Thread nD τ).loc main_arg3))
    (m ((c.tc : Thread nD τ).loc main_arg5)) (m ((c.tc : Thread nD τ).loc main_arg7)) (m ((c.tc : Thread nD τ).loc main_arg6))
abbrev logpOf : FVec Ideal S50000x64 .f32 :=
  Cert.Sage.logp (agg (D m c) (S m c)) (agg (D m c) (S m c)) (cnt (D m c)) (m ((c.tc : Thread nD τ).loc main_arg0))
    (m ((c.tc : Thread nD τ).loc main_arg2)) (m ((c.tc : Thread nD τ).loc main_arg4)) (m ((c.tc : Thread nD τ).loc main_arg3))
    (m ((c.tc : Thread nD τ).loc main_arg5)) (m ((c.tc : Thread nD τ).loc main_arg7)) (m ((c.tc : Thread nD τ).loc main_arg6))

/-! ## What the first stretch leaves -/

theorem s0_arg5 (W : Valuation τ sig (Elt Ideal)) : after (hostOps0 (F := Ideal)) W (Proc.devRef .tc main_arg5) = W (Proc.devRef .tc main_arg5) := by
  dsimp only [hostOps0]; after_results_simp
theorem s0_arg6 (W : Valuation τ sig (Elt Ideal)) : after (hostOps0 (F := Ideal)) W (Proc.devRef .tc main_arg6) = W (Proc.devRef .tc main_arg6) := by
  dsimp only [hostOps0]; after_results_simp
theorem s0_arg7 (W : Valuation τ sig (Elt Ideal)) : after (hostOps0 (F := Ideal)) W (Proc.devRef .tc main_arg7) = W (Proc.devRef .tc main_arg7) := by
  dsimp only [hostOps0]; after_results_simp

theorem w1_v24 : W1 m ρ c (Proc.devRef .tc main_v24) = scale (agg (D m c) (S m c) (m ((c.tc : Thread nD τ).loc main_arg0))) (inv (D m c)) :=
  s0_v24 (W0 m ρ c)
theorem w1_v1 : W1 m ρ c (Proc.devRef .tc main_v1) = S m c := s0_v1 (W0 m ρ c)
theorem w1_v3 : W1 m ρ c (Proc.devRef .tc main_v3) = D m c := s0_v3 (W0 m ρ c)
theorem w1_v11 : W1 m ρ c (Proc.devRef .tc main_v11) = inv (D m c) := s0_v11 (W0 m ρ c)
theorem w1_v25 : W1 m ρ c (Proc.devRef .tc main_v25) = T128 (m ((c.tc : Thread nD τ).loc main_arg2)) := s0_v25 (W0 m ρ c)
theorem w1_v26 : W1 m ρ c (Proc.devRef .tc main_v26) = T128 (m ((c.tc : Thread nD τ).loc main_arg4)) := s0_v26 (W0 m ρ c)
theorem w1_v27 : W1 m ρ c (Proc.devRef .tc main_v27) = R128 (m ((c.tc : Thread nD τ).loc main_arg3)) := s0_v27 (W0 m ρ c)
theorem w1_arg0 : W1 m ρ c (Proc.devRef .tc main_arg0) = m ((c.tc : Thread nD τ).loc main_arg0) := s0_arg0 (W0 m ρ c)

/-! ## The first call's output -/

theorem w2_v28 : W2 m ρ c (Proc.devRef .tc main_v28) = hiddenOf m c := by
  refine (W2_arr m ρ c 5).trans ((Region0.final (V1 m ρ) c).trans ?_)
  show Region0.G (W1 m ρ c (Proc.devRef .tc main_v24)) (W1 m ρ c (Proc.devRef .tc main_arg0)) (W1 m ρ c (Proc.devRef .tc main_v25))
      (W1 m ρ c (Proc.devRef .tc main_v26)) (W1 m ρ c (Proc.devRef .tc main_v27)) = _
  rw [w1_v24, w1_arg0, w1_v25, w1_v26, w1_v27]
  unfold hiddenOf
  have hiv := inv_apply (D m c)
  generalize inv (D m c) = iv at hiv ⊢
  generalize cnt (D m c) = cv at hiv ⊢
  generalize agg (D m c) (S m c) = A
  exact hidden_eq A cv iv hiv (m ((c.tc : Thread nD τ).loc main_arg0)) (m ((c.tc : Thread nD τ).loc main_arg2)) (m ((c.tc : Thread nD τ).loc main_arg4)) (m ((c.tc : Thread nD τ).loc main_arg3))

/-! ## What the stretch between the calls leaves -/

theorem w2_v1 : W2 m ρ c (Proc.devRef .tc main_v1) = S m c := (W2_of_ne m ρ c main_v1 (by decide)).trans (w1_v1 m ρ c)
theorem w2_v3 : W2 m ρ c (Proc.devRef .tc main_v3) = D m c := (W2_of_ne m ρ c main_v3 (by decide)).trans (w1_v3 m ρ c)
theorem w2_v11 : W2 m ρ c (Proc.devRef .tc main_v11) = inv (D m c) := (W2_of_ne m ρ c main_v11 (by decide)).trans (w1_v11 m ρ c)

theorem w3_v41 : W3 m ρ c (Proc.devRef .tc main_v41) = scale (agg (D m c) (S m c) (hiddenOf m c)) (inv (D m c)) := by
  refine (s1_v41 (W2 m ρ c)).trans ?_
  rw [w2_v1, w2_v3, w2_v11, w2_v28]
theorem w3_v28 : W3 m ρ c (Proc.devRef .tc main_v28) = hiddenOf m c := (s1_v28 (W2 m ρ c)).trans (w2_v28 m ρ c)

theorem w2_arg5 : W2 m ρ c (Proc.devRef .tc main_arg5) = m ((c.tc : Thread nD τ).loc main_arg5) :=
  (W2_of_ne m ρ c main_arg5 (by decide)).trans (s0_arg5 (W0 m ρ c))
theorem w2_arg6 : W2 m ρ c (Proc.devRef .tc main_arg6) = m ((c.tc : Thread nD τ).loc main_arg6) :=
  (W2_of_ne m ρ c main_arg6 (by decide)).trans (s0_arg6 (W0 m ρ c))
theorem w2_arg7 : W2 m ρ c (Proc.devRef .tc main_arg7) = m ((c.tc : Thread nD τ).loc main_arg7) :=
  (W2_of_ne m ρ c main_arg7 (by decide)).trans (s0_arg7 (W0 m ρ c))

theorem w3_v42 : W3 m ρ c (Proc.devRef .tc main_v42) = T64 (m ((c.tc : Thread nD τ).loc main_arg5)) := by
  refine (s1_v42 (W2 m ρ c)).trans ?_
  rw [w2_arg5]
theorem w3_v43 : W3 m ρ c (Proc.devRef .tc main_v43) = T64 (m ((c.tc : Thread nD τ).loc main_arg7)) := by
  refine (s1_v43 (W2 m ρ c)).trans ?_
  rw [w2_arg7]
theorem w3_v44 : W3 m ρ c (Proc.devRef .tc main_v44) = R64 (m ((c.tc : Thread nD τ).loc main_arg6)) := by
  refine (s1_v44 (W2 m ρ c)).trans ?_
  rw [w2_arg6]
  rfl

/-! ## The two results -/

theorem w4_logits : W4 m ρ c (Proc.devRef .tc main_v45_0) = logitsOf m c := by
  refine (W4_arr m ρ c 5).trans ((Region1.final5 (V3 m ρ) c).trans ?_)
  show Region1.Glin (W3 m ρ c (Proc.devRef .tc main_v41)) (W3 m ρ c (Proc.devRef .tc main_v28)) (W3 m ρ c (Proc.devRef .tc main_v42))
      (W3 m ρ c (Proc.devRef .tc main_v43)) (W3 m ρ c (Proc.devRef .tc main_v44)) = _
  rw [w3_v41, w3_v28, w3_v42, w3_v43, w3_v44]
  unfold logitsOf hiddenOf
  have hiv := inv_apply (D m c)
  generalize inv (D m c) = iv at hiv ⊢
  generalize cnt (D m c) = cv at hiv ⊢
  generalize agg (D m c) (S m c) = A
  exact logits_eq A cv iv hiv (m ((c.tc : Thread nD τ).loc main_arg0)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6))

theorem w4_logp : W4 m ρ c (Proc.devRef .tc main_v45_1) = logpOf m c := by
  refine (W4_arr m ρ c 6).trans ((Region1.final6 (V3 m ρ) c).trans ?_)
  show Region1.GP (W3 m ρ c (Proc.devRef .tc main_v41)) (W3 m ρ c (Proc.devRef .tc main_v28)) (W3 m ρ c (Proc.devRef .tc main_v42))
      (W3 m ρ c (Proc.devRef .tc main_v43)) (W3 m ρ c (Proc.devRef .tc main_v44)) = _
  rw [w3_v41, w3_v28, w3_v42, w3_v43, w3_v44]
  unfold logpOf hiddenOf
  have hiv := inv_apply (D m c)
  generalize inv (D m c) = iv at hiv ⊢
  generalize cnt (D m c) = cv at hiv ⊢
  generalize agg (D m c) (S m c) = A
  exact logp_eq A cv iv hiv (m ((c.tc : Thread nD τ).loc main_arg0)) (m ((c.tc : Thread nD τ).loc main_arg2)) (m ((c.tc : Thread nD τ).loc main_arg4)) (m ((c.tc : Thread nD τ).loc main_arg3)) (m ((c.tc : Thread nD τ).loc main_arg5)) (m ((c.tc : Thread nD τ).loc main_arg7)) (m ((c.tc : Thread nD τ).loc main_arg6))

/-! ## The run, read -/

/-- Every weakly fair execution of the idealized kernel terminates with the log-softmax and the second layer's output of
    the specification in its two result arrays, the arguments unchanged. -/
theorem run : θ_run defs (onTc (τ := τ) (main (F := Ideal))) ⟨m, fun _ => 0, ρ⟩ (fun r => ∀ c : Dev nD,
      r.2.mem ((c.tc : Thread nD τ).loc main_v45_1) = logpOf m c
      ∧ r.2.mem ((c.tc : Thread nD τ).loc main_v45_0) = logitsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (w4_logp m ρ c), (h c).2.1.trans (w4_logits m ρ c), (h c).2.2⟩)
    (Cert.KernelIdeal.RunV.run (F := Ideal) m ρ)

end Cert.KernelIdeal.ValueV

end
-- ==== Proof.RefBridge62.lean ====
/-
  The reference's second-layer output buffer, after its operations have run in order from any contents, holds the stage
  function of the eight argument buffers: the fold of the operations' results, read at that buffer, is the composition of
  the stages that feed it.  The argument buffers themselves are written by no operation.
-/
import proofs.«148079_j2370821947944_1_alg».proof.Proof.RefReadP
import Idealize.ShloMosaic.Lib.StableHlo.Run
import Idealize.ShloMosaic.PureOps.Ideal

set_option maxRecDepth 16384
set_option maxHeartbeats 4000000

noncomputable section

open Idealize.ShloMosaic Idealize.ShloMosaic.TcCoe Idealize.SL.Sem Idealize.ShloMosaic.StableHlo

namespace Cert.ReferenceIdeal.Bridge

open Cert.ReferenceIdeal Cert.ReferenceIdeal.Gen Cert.ReferenceIdeal.ValueP Cert.ReferenceIdeal.ReadP

variable (W : Valuation τ sig (Elt Ideal))

theorem res62 : after (ops (F := Ideal)) W (Proc.devRef .tc main_v62) = val_main_v62 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  dsimp only [ops]; after_results_simp; rfl

theorem kept0 : after (ops (F := Ideal)) W (Proc.devRef .tc main_arg0) = W (Proc.devRef .tc main_arg0) := by dsimp only [ops]; after_results_simp
theorem kept1 : after (ops (F := Ideal)) W (Proc.devRef .tc main_arg1) = W (Proc.devRef .tc main_arg1) := by dsimp only [ops]; after_results_simp
theorem kept2 : after (ops (F := Ideal)) W (Proc.devRef .tc main_arg2) = W (Proc.devRef .tc main_arg2) := by dsimp only [ops]; after_results_simp
theorem kept3 : after (ops (F := Ideal)) W (Proc.devRef .tc main_arg3) = W (Proc.devRef .tc main_arg3) := by dsimp only [ops]; after_results_simp
theorem kept4 : after (ops (F := Ideal)) W (Proc.devRef .tc main_arg4) = W (Proc.devRef .tc main_arg4) := by dsimp only [ops]; after_results_simp
theorem kept5 : after (ops (F := Ideal)) W (Proc.devRef .tc main_arg5) = W (Proc.devRef .tc main_arg5) := by dsimp only [ops]; after_results_simp
theorem kept6 : after (ops (F := Ideal)) W (Proc.devRef .tc main_arg6) = W (Proc.devRef .tc main_arg6) := by dsimp only [ops]; after_results_simp
theorem kept7 : after (ops (F := Ideal)) W (Proc.devRef .tc main_arg7) = W (Proc.devRef .tc main_arg7) := by dsimp only [ops]; after_results_simp

end Cert.ReferenceIdeal.Bridge

end
-- ==== Proof.LibRunPieces.lean ====
/-
  Two facts for reading a long host program's run in pieces.

  The buffer contents after a list of host operations are a fold of the operations' results.  Over a concatenation the
  fold runs the first part and then the second from what the first left: a long program can be read up to an intermediate
  buffer and then from it, instead of as one term.

  An operation of a called function is stated at the tensor value's type and carried to the buffer's own type and back
  along the reference's type equation.  Carrying there and back is the identity, whatever the equation's proof: where one
  operation's output feeds the next, the two carryings cancel by rewriting, and nothing has to be unfolded.  (Left to
  definitional unfolding, a reduction over a large shape on one side and its carried form on the other can make the
  unifier evaluate the reduction.)
-/
import Idealize.ShloMosaic.Lib.StableHlo.Run

noncomputable section

namespace Cert.Lib.RunPieces

open Idealize.ShloMosaic Idealize.ShloMosaic.StableHlo

variable {τ : Topo} {sig : RefSig} {Val : EltTy → Type}

/-- Running a concatenation of operations is running its halves in turn. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents carried to a typed reference's own buffer type and back are the contents. -/
theorem ofBuf_toBuf {T : BufTy} (x : TRef sig T) (v : T.Contents Val) : x.ofBuf (x.toBuf v) = v := by
  unfold TRef.ofBuf TRef.toBuf
  rw [cast_cast, cast_eq]

/-- Contents of the buffer's own type carried to the value's type and back are the contents. -/
theorem toBuf_ofBuf {T : BufTy} (x : TRef sig T) (w : x.ref.ty.Contents Val) : x.toBuf (x.ofBuf w) = w := by
  unfold TRef.ofBuf TRef.toBuf
  rw [cast_cast, cast_eq]

end Cert.Lib.RunPieces

end
-- ==== Proof.RefTail.lean ====
/-
  The reference's log-softmax buffer after its run.  The last fifteen operations of the reference are the row-wise
  log-softmax of the second layer's output and read no other computed buffer; they write fresh buffers only.  So the fold
  of all the operations, read at the log-softmax buffer, is the fold of those fifteen over whatever the operations before
  them left, of which only the second layer's output matters — and that output is already known as its stage function.
-/
import proofs.«148079_j2370821947944_1_alg».proof.Proof.RefBridge62
import proofs.«148079_j2370821947944_1_alg».proof.Proof.LibRunPieces

set_option maxRecDepth 16384
set_option maxHeartbeats 4000000

noncomputable section

open Idealize.ShloMosaic Idealize.ShloMosaic.TcCoe Idealize.SL.Sem Idealize.ShloMosaic.StableHlo

namespace Cert.ReferenceIdeal.Bridge

open Cert.ReferenceIdeal Cert.ReferenceIdeal.Gen Cert.ReferenceIdeal.ValueP Cert.ReferenceIdeal.ReadP

section
variable {F : FTy → Type} [FloatOps F]
/-- The reference's last fifteen operations: the row-wise log-softmax of the second layer's output. -/
abbrev tailOps : List (HloOp τ sig (Elt F)) :=
  [ TRef.nullary (TRef.of (T := ⟨S_, .f32⟩) main_call1_cst) (constant S_ .f32 0xFF800000#32),
    TRef.binary (TRef.of (T := ⟨S50000x64, .f32⟩) main_v62) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v62) (TRef.of (T := ⟨S50000x64, .f32⟩) main_call1_v4) (TRef.of (T := ⟨S50000x64, .f32⟩) main_call1_v5) subf,
    TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v63) subf ]
end

/-- They are the reference's operations from the 78th on. -/
theorem drop_eq : (ops (F := Ideal)).drop 77 = tailOps (F := Ideal) := rfl

theorem ops_split : ops (F := Ideal) = (ops (F := Ideal)).take 77 ++ tailOps (F := Ideal) := by
  rw [← drop_eq, List.take_append_drop]

/-- The tail leaves the second layer's output alone. -/
theorem tail_keep62 (V : Valuation τ sig (Elt Ideal)) :
    after (tailOps (F := Ideal)) V (Proc.devRef .tc main_v62) = V (Proc.devRef .tc main_v62) := by
  dsimp only [tailOps]; after_results_simp

/-- At the second layer's output buffer and at the log-softmax buffer the carrying is the identity. -/
theorem toBuf62 (v : (⟨S50000x64, .f32⟩ : BufTy).Contents (Elt Ideal)) :
    (TRef.of (sig := sig) (T := ⟨S50000x64, .f32⟩) main_v62).toBuf v = v := rfl
theorem toBuf63 (v : (⟨S50000x64, .f32⟩ : BufTy).Contents (Elt Ideal)) :
    (TRef.of (sig := sig) (T := ⟨S50000x64, .f32⟩) main_v63).toBuf v = v := rfl

/-- The tail computes the log-softmax stage from the second layer's output. -/
theorem tail63 (V : Valuation τ sig (Elt Ideal))
    (a0 : (⟨S50000x128, .f32⟩ : BufTy).Contents (Elt Ideal)) (a1 : (⟨S2x640000, .i32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S64x128, .f32⟩ : BufTy).Contents (Elt Ideal))
    (a6 : (⟨S64, .f32⟩ : BufTy).Contents (Elt Ideal)) (a7 : (⟨S64x128, .f32⟩ : BufTy).Contents (Elt Ideal))
    (h : V (Proc.devRef .tc main_v62) = val_main_v62 (F := Ideal) a0 a1 a2 a3 a4 a5 a6 a7) :
    after (tailOps (F := Ideal)) V (Proc.devRef .tc main_v63) = val_main_v63 (F := Ideal) a0 a1 a2 a3 a4 a5 a6 a7 := by
  have h' : V (Proc.devRef .tc main_v62)
      = (TRef.of (sig := sig) (T := ⟨S50000x64, .f32⟩) main_v62).toBuf (val_main_v62 (F := Ideal) a0 a1 a2 a3 a4 a5 a6 a7) :=
    h.trans (toBuf62 _).symm
  dsimp only [tailOps]; after_results_simp
  rw [h']
  simp only [Cert.Lib.RunPieces.ofBuf_toBuf]
  refine (toBuf63 _).trans ?_
  rfl

/-- The log-softmax buffer after the whole run. -/
theorem res63' (W : Valuation τ sig (Elt Ideal)) :
    after (ops (F := Ideal)) W (Proc.devRef .tc main_v63) = val_main_v63 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  have h62 := res62 W
  rw [congrArg (fun l => after l W (Proc.devRef .tc main_v62)) ops_split] at h62
  rw [congrArg (fun l => after l W (Proc.devRef .tc main_v63)) ops_split]
  rw [Cert.Lib.RunPieces.after_append] at h62 ⊢
  rw [tail_keep62] at h62
  exact tail63 _ _ _ _ _ _ _ _ _ h62

end Cert.ReferenceIdeal.Bridge

end
-- ==== Proof.RefRun.lean ====
/-
  The reference's run, read: every weakly fair execution terminates with its two result buffers at the stage functions of
  the arguments' launch contents and the arguments unchanged.  The run leaves every buffer at the fold of the operations
  over the launch contents; the two result buffers' folds are the stage functions, and no operation writes an argument.
-/
import proofs.«148079_j2370821947944_1_alg».proof.Proof.RefTail

set_option maxRecDepth 16384

noncomputable section

open Idealize.ShloMosaic Idealize.ShloMosaic.TcCoe Idealize.SL.Sem Idealize.ShloMosaic.StableHlo

namespace Cert.ReferenceIdeal.Bridge

open Cert.ReferenceIdeal Cert.ReferenceIdeal.Gen Cert.ReferenceIdeal.ValueP Cert.ReferenceIdeal.ReadP

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v63).trans (res63' (launchContents m c)),
       (h c main_v62).trans (res62 (launchContents m c)),
       (h c main_arg0).trans (kept0 (launchContents m c)),
       (h c main_arg1).trans (kept1 (launchContents m c)),
       (h c main_arg2).trans (kept2 (launchContents m c)),
       (h c main_arg3).trans (kept3 (launchContents m c)),
       (h c main_arg4).trans (kept4 (launchContents m c)),
       (h c main_arg5).trans (kept5 (launchContents m c)),
       (h c main_arg6).trans (kept6 (launchContents m c)),
       (h c main_arg7).trans (kept7 (launchContents m c))⟩)
    (Cert.ReferenceIdeal.ValueP.run (F := Ideal) m ρ)

end Cert.ReferenceIdeal.Bridge

end
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.RefIsSpec.lean ====
/-
  The reference program's two results are the specification's, entry by entry, on the extended reals.

  The reference computes two layers of mean-aggregating graph convolution and a row-wise log-softmax. Read at an index,
  its terms and the specification's differ in five places, and none of them changes a value:
  • the reference divides a node's neighbour sum by its in-degree floored at one, the specification multiplies by the
    reciprocal: the floored in-degree is a real number that is at least one (a sum of ones, then a maximum with one), and
    dividing by such a number is multiplying by its reciprocal whatever the dividend is, infinite or not;
  • the reference adds the bias before the self branch, the specification after: addition of extended reals is
    commutative and associative;
  • the reference's log-softmax takes the maximum of −∞ and the row's maximum before subtracting it: `max ⊥ m = m`;
    the row's maximum itself is a reduction over the columns, which is the fold of `max` from −∞ over the row;
  • the reference's sum of exponentials starts from the literal zero: `0 + s = s`;
  • the weights enter transposed: the transpose read at (k, j) is the weight at (j, k).
-/
import proofs.«148079_j2370821947944_1_alg».proof.Proof.RefReadP
import proofs.«148079_j2370821947944_1_alg».proof.Proof.Spec
import proofs.«148079_j2370821947944_1_alg».proof.Proof.LibFinite
import Idealize.ShloMosaic.Lib.ValueIdx
import Idealize.ShloMosaic.Lib.Pipeline.Value
import Idealize.ShloMosaic.PureOps.Ideal.Laws

noncomputable section

namespace Cert.ReferenceIdeal.RefSpec

open Cert.ReferenceIdeal Cert.ReferenceIdeal.Gen Cert.ReferenceIdeal.ReadP Idealize.ShloMosaic Idealize.ShloMosaic.ValueIdx Cert.Finite
open scoped BigOperators

/-! ## The three literals -/

theorem one_eq : Cert.Sage.one = 1 := by
  show Ideal.ofBits .f32 0x3F800000#32 = 1
  simp [Ideal.ofBits, Ideal.ieee, -EReal.coe_mul]; norm_num

theorem zero_eq : Cert.Sage.zero = 0 := Ideal.ofBits_zero_f32

theorem ninf_eq : Cert.Sage.ninf = ⊥ := by
  show Ideal.ofBits .f32 0xFF800000#32 = ⊥
  simp [Ideal.ofBits, Ideal.ieee]

/-- Dividing by a real number that is at least one is multiplying by its reciprocal, whatever the dividend. -/
theorem div_eq_mul_recip (a c : EReal) (hc : IsReal c) (h1 : 1 ≤ c) : Ideal.div a c = a * Ideal.div 1 c := by
  obtain ⟨b, rfl⟩ := hc
  have hb : (1 : ℝ) ≤ b := by exact_mod_cast h1
  have hb0 : b ≠ 0 := by linarith
  rw [Ideal.div_coe hb0, Ideal.div_coe hb0, one_mul]

/-! ## The neighbour sum and the in-degrees, as the reference computes them -/

/-- The neighbour sum of a feature matrix along the edge list: the scatter-add, at the edges' targets, of the rows
    gathered at the edges' sources. -/
def aggR (ei : (⟨S2x640000, .i32⟩ : BufTy).Contents (Elt Ideal)) (feat : (⟨S50000x128, .f32⟩ : BufTy).Contents (Elt Ideal)) :
    (⟨S50000x128, .f32⟩ : BufTy).Contents (Elt Ideal) :=
  Host.scatterAdd (F := Ideal) (φ := .f32) scatter_S50000x128_S640000x1_S640000x128_1_0_0_1 (val_main_v11 (F := Ideal))
    (val_main_v12 (F := Ideal) ei)
    (Host.gather (α := Ideal .f32) gather_S50000x128_S640000x1_S640000x128_1_0_n_n_0_1_1128 feat (val_main_v9 (F := Ideal) ei))

/-- The in-degrees: the scatter-add of a one per edge, at the edges' targets, into zeros. -/
def cntR (ei : (⟨S2x640000, .i32⟩ : BufTy).Contents (Elt Ideal)) : (⟨S50000, .f32⟩ : BufTy).Contents (Elt Ideal) :=
  val_main_v17 (F := Ideal) ei

/-- The first layer's neighbour sum is `aggR` of the input features. -/
theorem agg1_eq (x0 : (⟨S50000x128, .f32⟩ : BufTy).Contents (Elt Ideal)) (x1 : (⟨S2x640000, .i32⟩ : BufTy).Contents (Elt Ideal)) : val_main_v13 (F := Ideal) x0 x1 = aggR x1 x0 := rfl

/-- The second layer's neighbour sum is `aggR` of the hidden features: its index operands are the first layer's, computed again. -/
theorem agg2_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v45 (F := Ideal) x0 x1 x2 x3 x4 = aggR x1 (val_main_v31 (F := Ideal) x0 x1 x2 x3 x4) := rfl

/-- The second layer's in-degrees are the first layer's, computed again. -/
theorem cnt2_eq (x1 : (⟨S2x640000, .i32⟩ : BufTy).Contents (Elt Ideal)) : val_main_v49 (F := Ideal) x1 = cntR x1 := rfl

/-- An in-degree is a real number: a sum of ones added to a zero. -/
theorem isReal_cnt (x1 : (⟨S2x640000, .i32⟩ : BufTy).Contents (Elt Ideal)) (i : S50000.Idx) : IsReal (cntR x1 i) := by
  show IsReal (Ideal.hostScatterAdd scatter_S50000_S640000x1_S640000_n_0_0_1 (val_main_v15 (F := Ideal)) (val_main_v16 (F := Ideal) x1)
    (val_main_v14 (F := Ideal)) i)
  refine isReal_hostScatterAdd _ _ _ _ (fun i => ?_) (fun j => ?_) i
  · rw [val_main_v15_apply, val_main_cst_2_apply, Ideal.ofBits_def, Ideal.ofBits_zero_f32]; exact isReal_zero
  · rw [val_main_v14_apply, val_main_cst_1_apply, Ideal.ofBits_def]
    show IsReal Cert.Sage.one
    rw [one_eq]; exact isReal_one

/-- Dividing by a node's in-degree floored at one is multiplying by the specification's reciprocal. -/
theorem div_floor (a : EReal) (x1 : (⟨S2x640000, .i32⟩ : BufTy).Contents (Elt Ideal)) (r : Fin 50000) :
    Ideal.div a (max (cntR x1 (ix1 r)) Cert.Sage.one) = a * Cert.Sage.invAt (cntR x1) r := by
  have hc : IsReal (max (cntR x1 (ix1 r)) Cert.Sage.one) := (isReal_cnt x1 (ix1 r)).max (by rw [one_eq]; exact isReal_one)
  have h1 : 1 ≤ max (cntR x1 (ix1 r)) Cert.Sage.one := by rw [one_eq]; exact le_max_right _ _
  rw [div_eq_mul_recip a _ hc h1]
  show a * Ideal.div 1 (max (cntR x1 (ix1 r)) Cert.Sage.one) = a * Ideal.div Cert.Sage.one (max (cntR x1 (ix1 r)) Cert.Sage.one)
  rw [one_eq]

/-! ## The first layer -/

/-- The first layer's mean features. -/
theorem mean1_apply (x0 : (⟨S50000x128, .f32⟩ : BufTy).Contents (Elt Ideal)) (x1 : (⟨S2x640000, .i32⟩ : BufTy).Contents (Elt Ideal)) (r : Fin 50000) (k : Fin 128) :
    val_main_v22 (F := Ideal) x0 x1 (ix2 r k) = Cert.Sage.meanAt (aggR x1 x0) (cntR x1) r k := by
  have e : idx_main_v20 (idx_main_v21 (ix2 r k)) = ix1 r := funext fun a => Fin.ext (by match a with | ⟨0, _⟩ => rfl)
  rw [val_main_v22_apply, val_main_v21_apply, val_main_v20_apply, val_main_v19_apply, val_main_v18_apply, val_main_cst_3_apply, e,
    agg1_eq]
  exact div_floor _ x1 r

/-- The hidden features: the first layer, then `max · 0`. -/
theorem hidden_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4 = Cert.Sage.hidden (aggR x1) (cntR x1) x0 x2 x4 x3 := by
  funext i
  obtain ⟨r, j, rfl⟩ : ∃ (r : Fin 50000) (j : Fin 128), i = ix2 r j := ⟨i 0, i 1, eq_ix2 i⟩
  have el : ∀ k : Fin 128, lidx_main_v24 (ix2 r j) k = ix2 r k := fun k => funext fun a => Fin.ext (by match a with | ⟨0, _⟩ => rfl | ⟨1, _⟩ => rfl)
  have er : ∀ k : Fin 128, idx_main_v23 (ridx_main_v24 (ix2 r j) k) = ix2 j k := fun k => funext fun a => Fin.ext (by match a with | ⟨0, _⟩ => rfl | ⟨1, _⟩ => rfl)
  have el' : ∀ k : Fin 128, lidx_main_v29 (ix2 r j) k = ix2 r k := fun k => funext fun a => Fin.ext (by match a with | ⟨0, _⟩ => rfl | ⟨1, _⟩ => rfl)
  have er' : ∀ k : Fin 128, idx_main_v28 (ridx_main_v29 (ix2 r j) k) = ix2 j k := fun k => funext fun a => Fin.ext (by match a with | ⟨0, _⟩ => rfl | ⟨1, _⟩ => rfl)
  have eb : idx_main_v25 (idx_main_v26 (ix2 r j)) = ix1 j := funext fun a => Fin.ext (by match a with | ⟨0, _⟩ => rfl)
  have s1 : ∑ k : Fin 128, val_main_v22 (F := Ideal) x0 x1 (lidx_main_v24 (ix2 r j) k) * val_main_v23 (F := Ideal) x2 (ridx_main_v24 (ix2 r j) k)
      = ∑ k : Fin 128, Cert.Sage.meanAt (aggR x1 x0) (cntR x1) r k * x2 (ix2 j k) :=
    Finset.sum_congr rfl fun k _ => by rw [el k, mean1_apply, val_main_v23_apply, er k]
  have s2 : ∑ k : Fin 128, x0 (lidx_main_v29 (ix2 r j) k) * val_main_v28 (F := Ideal) x4 (ridx_main_v29 (ix2 r j) k)
      = ∑ k : Fin 128, x0 (ix2 r k) * x4 (ix2 j k) :=
    Finset.sum_congr rfl fun k _ => by rw [el' k, val_main_v28_apply, er' k]
  rw [val_main_v31_apply, val_main_v30_apply, val_main_v27_apply, val_main_v24_apply, val_main_v26_apply, val_main_v25_apply,
    val_main_v29_apply, val_main_call0_v0_apply, val_main_call0_cst_apply, eb, s1, s2]
  show max (((∑ k : Fin 128, Cert.Sage.meanAt (aggR x1 x0) (cntR x1) r k * x2 (ix2 j k)) + x3 (ix1 j))
      + ∑ k : Fin 128, x0 (ix2 r k) * x4 (ix2 j k)) Cert.Sage.zero
    = max (((∑ k : Fin 128, Cert.Sage.meanAt (aggR x1 x0) (cntR x1) r k * x2 (ix2 j k))
      + ∑ k : Fin 128, x0 (ix2 r k) * x4 (ix2 j k)) + x3 (ix1 j)) Cert.Sage.zero
  rw [add_right_comm]

/-! ## The second layer -/

/-- The second layer's mean features. -/
theorem mean2_apply (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (r : Fin 50000) (k : Fin 128) :
    val_main_v54 (F := Ideal) x0 x1 x2 x3 x4 (ix2 r k)
      = Cert.Sage.meanAt (aggR x1 (Cert.Sage.hidden (aggR x1) (cntR x1) x0 x2 x4 x3)) (cntR x1) r k := by
  have e : idx_main_v52 (idx_main_v53 (ix2 r k)) = ix1 r := funext fun a => Fin.ext (by match a with | ⟨0, _⟩ => rfl)
  rw [val_main_v54_apply, val_main_v53_apply, val_main_v52_apply, val_main_v51_apply, val_main_v50_apply, val_main_cst_9_apply, e,
    agg2_eq, cnt2_eq, hidden_eq]
  exact div_floor _ x1 r

/-- The first result: the second layer's output. -/
theorem logits_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) :
    val_main_v62 (F := Ideal) x0 x1 x2 x3 x4 x5 x6 x7 = Cert.Sage.logits (aggR x1) (aggR x1) (cntR x1) x0 x2 x4 x3 x5 x7 x6 := by
  funext i
  obtain ⟨r, j, rfl⟩ : ∃ (r : Fin 50000) (j : Fin 64), i = ix2 r j := ⟨i 0, i 1, eq_ix2 i⟩
  have el : ∀ k : Fin 128, lidx_main_v56 (ix2 r j) k = ix2 r k := fun k => funext fun a => Fin.ext (by match a with | ⟨0, _⟩ => rfl | ⟨1, _⟩ => rfl)
  have er : ∀ k : Fin 128, idx_main_v55 (ridx_main_v56 (ix2 r j) k) = ix2 j k := fun k => funext fun a => Fin.ext (by match a with | ⟨0, _⟩ => rfl | ⟨1, _⟩ => rfl)
  have el' : ∀ k : Fin 128, lidx_main_v61 (ix2 r j) k = ix2 r k := fun k => funext fun a => Fin.ext (by match a with | ⟨0, _⟩ => rfl | ⟨1, _⟩ => rfl)
  have er' : ∀ k : Fin 128, idx_main_v60 (ridx_main_v61 (ix2 r j) k) = ix2 j k := fun k => funext fun a => Fin.ext (by match a with | ⟨0, _⟩ => rfl | ⟨1, _⟩ => rfl)
  have eb : idx_main_v57 (idx_main_v58 (ix2 r j)) = ix1 j := funext fun a => Fin.ext (by match a with | ⟨0, _⟩ => rfl)
  have s1 : ∑ k : Fin 128, val_main_v54 (F := Ideal) x0 x1 x2 x3 x4 (lidx_main_v56 (ix2 r j) k) * val_main_v55 (F := Ideal) x5 (ridx_main_v56 (ix2 r j) k)
      = ∑ k : Fin 128, Cert.Sage.meanAt (aggR x1 (Cert.Sage.hidden (aggR x1) (cntR x1) x0 x2 x4 x3)) (cntR x1) r k * x5 (ix2 j k) :=
    Finset.sum_congr rfl fun k _ => by rw [el k, mean2_apply, val_main_v55_apply, er k]
  have s2 : ∑ k : Fin 128, val_main_v31 (F := Ideal) x0 x1 x2 x3 x4 (lidx_main_v61 (ix2 r j) k) * val_main_v60 (F := Ideal) x7 (ridx_main_v61 (ix2 r j) k)
      = ∑ k : Fin 128, Cert.Sage.hidden (aggR x1) (cntR x1) x0 x2 x4 x3 (ix2 r k) * x7 (ix2 j k) :=
    Finset.sum_congr rfl fun k _ => by rw [el' k, hidden_eq, val_main_v60_apply, er' k]
  rw [val_main_v62_apply, val_main_v59_apply, val_main_v56_apply, val_main_v58_apply, val_main_v57_apply, val_main_v61_apply, eb, s1, s2]
  show ((∑ k : Fin 128, Cert.Sage.meanAt (aggR x1 (Cert.Sage.hidden (aggR x1) (cntR x1) x0 x2 x4 x3)) (cntR x1) r k * x5 (ix2 j k)) + x6 (ix1 j))
      + ∑ k : Fin 128, Cert.Sage.hidden (aggR x1) (cntR x1) x0 x2 x4 x3 (ix2 r k) * x7 (ix2 j k)
    = ((∑ k : Fin 128, Cert.Sage.meanAt (aggR x1 (Cert.Sage.hidden (aggR x1) (cntR x1) x0 x2 x4 x3)) (cntR x1) r k * x5 (ix2 j k))
      + ∑ k : Fin 128, Cert.Sage.hidden (aggR x1) (cntR x1) x0 x2 x4 x3 (ix2 r k) * x7 (ix2 j k)) + x6 (ix1 j)
  rw [add_right_comm]

/-! ## The log-softmax -/

/-- A reduction by `max` from −∞ over the columns is, at a row, the fold of `max` from −∞ over the row's entries. -/
theorem rowmax_read (L : (⟨S50000x64, .f32⟩ : BufTy).Contents (Elt Ideal)) (r : Fin 50000) :
    Host.reduce (α := Ideal .f32) (FloatOps.maximumf (F := Ideal) (φ := .f32)) L (val_main_call1_cst (F := Ideal))
        reducesTo_S50000x64_S50000_d1 h_S_ (ix1 r)
      = Cert.Sage.rowmaxAt L r := by
  have h : S50000x64.Reduces [1] S50000 := by decide
  rw [Host.reduce_eq_fold_single (FloatOps.maximumf (F := Ideal) (φ := .f32)) L _ reducesTo_S50000x64_S50000_d1 h h_S_]
  have hl : (L ∘ h.lift (ix1 r)) = fun q : Fin 64 => L (ix2 r q) :=
    funext fun q => congrArg L (funext fun a => Fin.ext (by match a with | ⟨0, _⟩ => rfl | ⟨1, _⟩ => rfl))
  rw [hl]
  rfl

/-- The maximum the reference subtracts, the larger of −∞ and the row's maximum, is the row's maximum. -/
theorem rowmax_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) (r : Fin 50000) :
    val_main_call1_v2 (F := Ideal) x0 x1 x2 x3 x4 x5 x6 x7 (ix1 r)
      = Cert.Sage.rowmaxAt (val_main_v62 (F := Ideal) x0 x1 x2 x3 x4 x5 x6 x7) r := by
  have h0 : val_main_call1_v0 (F := Ideal) x0 x1 x2 x3 x4 x5 x6 x7 (ix1 r)
      = Cert.Sage.rowmaxAt (val_main_v62 (F := Ideal) x0 x1 x2 x3 x4 x5 x6 x7) r := rowmax_read _ r
  rw [val_main_call1_v2_apply, val_main_call1_v1_apply, val_main_call1_cst_0_apply, Ideal.ofBits_def, h0]
  show max Cert.Sage.ninf _ = _
  rw [ninf_eq, max_bot_left]

/-- An entry less its row's maximum. -/
theorem shifted_apply (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) (r : Fin 50000) (q : Fin 64) :
    val_main_call1_v5 (F := Ideal) x0 x1 x2 x3 x4 x5 x6 x7 (ix2 r q)
      = val_main_v62 (F := Ideal) x0 x1 x2 x3 x4 x5 x6 x7 (ix2 r q) - Cert.Sage.rowmaxAt (val_main_v62 (F := Ideal) x0 x1 x2 x3 x4 x5 x6 x7) r := by
  have e : idx_main_call1_v3 (idx_main_call1_v4 (ix2 r q)) = ix1 r := funext fun a => Fin.ext (by match a with | ⟨0, _⟩ => rfl)
  rw [val_main_call1_v5_apply, val_main_call1_v4_apply, val_main_call1_v3_apply, e, rowmax_eq]
  rfl

/-- The second result: the row-wise log-softmax of the first. -/
theorem logp_eq (x0 : (⟨S50000x128, .f32⟩ : BufTy).Contents (Elt Ideal)) (x1 : (⟨S2x640000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) :
    val_main_v63 (F := Ideal) x0 x1 x2 x3 x4 x5 x6 x7 = Cert.Sage.logp (aggR x1) (aggR x1) (cntR x1) x0 x2 x4 x3 x5 x7 x6 := by
  funext i
  obtain ⟨r, j, rfl⟩ : ∃ (r : Fin 50000) (j : Fin 64), i = ix2 r j := ⟨i 0, i 1, eq_ix2 i⟩
  have e : idx_main_call1_v8 (idx_main_call1_v10 (ix2 r j)) = ix1 r := funext fun a => Fin.ext (by match a with | ⟨0, _⟩ => rfl)
  have e7 : ∀ q : Fin 64, idx_main_call1_v7 (ix1 r) q = ix2 r q := fun q => funext fun a => Fin.ext (by match a with | ⟨0, _⟩ => rfl | ⟨1, _⟩ => rfl)
  have s : ∑ q : Fin 64, val_main_call1_v6 (F := Ideal) x0 x1 x2 x3 x4 x5 x6 x7 (idx_main_call1_v7 (ix1 r) q)
      = ∑ q : Fin 64, Ideal.exp (val_main_v62 (F := Ideal) x0 x1 x2 x3 x4 x5 x6 x7 (ix2 r q)
          - Cert.Sage.rowmaxAt (val_main_v62 (F := Ideal) x0 x1 x2 x3 x4 x5 x6 x7) r) :=
    Finset.sum_congr rfl fun q _ => by rw [e7 q, val_main_call1_v6_apply, shifted_apply, Ideal.hostUnary_exp_def]
  rw [val_main_v63_apply, shifted_apply, val_main_call1_v10_apply, val_main_call1_v9_apply, val_main_call1_v8_apply, e,
    val_main_call1_v7_apply, val_main_call1_cst_1_apply, s, Ideal.ofBits_def, Ideal.ofBits_zero_f32, zero_add, Ideal.hostUnary_log_def,
    logits_eq]
  rfl

end Cert.ReferenceIdeal.RefSpec

end
-- ==== Proof.Glue.lean ====
/-
  The two programs compute the neighbour sum and the in-degrees by the same operations on the same edge list: the edge
  list's rows, a negative source wrapped by the row count, the rows gathered at the sources, a scatter-add at the targets
  into zeros; ones scatter-added at the targets into zeros.  The kernel's terms and the reference's are one term.
-/
import proofs.«148079_j2370821947944_1_alg».proof.Proof.KernelHost
import proofs.«148079_j2370821947944_1_alg».proof.Proof.RefIsSpec

set_option maxRecDepth 16384

noncomputable section

open Idealize.ShloMosaic Idealize.ShloMosaic.TcCoe Idealize.SL.Sem

namespace Cert.Glue

variable [Cert.KernelIdeal.Facts] [Cert.ReferenceIdeal.Facts]

/-- The neighbour sums agree, as functions of the feature matrix. -/
theorem agg_eq (ei : (⟨Cert.KernelIdeal.S2x640000, .i32⟩ : BufTy).Contents (Elt Ideal)) :
    Cert.KernelIdeal.Host.agg (Cert.KernelIdeal.Host.dst ei) (Cert.KernelIdeal.Host.src ei) = Cert.ReferenceIdeal.RefSpec.aggR ei := by
  funext feat
  rfl

/-- The in-degrees agree. -/
theorem cnt_eq (ei : (⟨Cert.KernelIdeal.S2x640000, .i32⟩ : BufTy).Contents (Elt Ideal)) :
    Cert.KernelIdeal.Host.cnt (Cert.KernelIdeal.Host.dst ei) = Cert.ReferenceIdeal.RefSpec.cntR ei := rfl

end Cert.Glue

end
-- ==== Proof.lean ====
/-
  A two-layer graph convolution with mean aggregation, the dense parts as two tiled kernels, against its plain reference,
  over the extended reals.

  Both programs compute, from the edge list, each node's in-degree and the sum of its in-neighbours' feature rows by the
  same gather and scatter-add; a layer is `mean · Wlᵀ + X · Wrᵀ + b`, the first followed by `max · 0`, and the results are
  the second layer's output and its row-wise log-softmax.  The kernel turns the neighbour sum into a mean by multiplying
  with the reciprocal of the in-degree floored at one, the reference by dividing by it: the floored in-degree is a real
  number that is at least one, so the two agree whatever the neighbour sum is.  The kernel adds the bias after the self
  branch, the reference before: addition is commutative and associative.  The reference's log-softmax takes a maximum
  with −∞ that changes nothing.  The kernel's two tiled calls each write, ten row blocks at a time, one function of the
  whole arrays; nothing else differs.

  The kernel's run with its results named, each call's whole-array function, the host terms around the calls and their
  reading at an entry are in KernelRun, Region0Value, Region1Value, KernelHost, KernelReads, KernelLayers and KernelValue;
  the reference's run and its stage functions in RefRunP, RefReadP, RefBridge62, RefTail and RefRun; that the reference's
  stage functions are the specification (Spec) in RefIsSpec; that the two programs' neighbour sums and in-degrees are one
  term in Glue.
-/
import proofs.«148079_j2370821947944_1_alg».proof.Defs
import proofs.«148079_j2370821947944_1_alg».proof.Proof.Gen.Kernel
import proofs.«148079_j2370821947944_1_alg».proof.Proof.Gen.Kernel.Skeleton
import proofs.«148079_j2370821947944_1_alg».proof.Proof.Gen.Kernel.Launch
import proofs.«148079_j2370821947944_1_alg».proof.Proof.Gen.Kernel.Points
import proofs.«148079_j2370821947944_1_alg».proof.Proof.Gen.Kernel.Frame
import proofs.«148079_j2370821947944_1_alg».proof.Proof.Gen.KernelIdeal
import proofs.«148079_j2370821947944_1_alg».proof.Proof.Gen.KernelIdeal.Skeleton
import proofs.«148079_j2370821947944_1_alg».proof.Proof.Gen.KernelIdeal.Launch
import proofs.«148079_j2370821947944_1_alg».proof.Proof.Gen.KernelIdeal.Points
import proofs.«148079_j2370821947944_1_alg».proof.Proof.Gen.KernelIdeal.Frame
import proofs.«148079_j2370821947944_1_alg».proof.Proof.Gen.ReferenceIdeal
import proofs.«148079_j2370821947944_1_alg».proof.Proof.Gen.Pre_finite_inputs
import proofs.«148079_j2370821947944_1_alg».proof.Proof.KernelValue
import proofs.«148079_j2370821947944_1_alg».proof.Proof.RefRun
import proofs.«148079_j2370821947944_1_alg».proof.Proof.RefIsSpec
import proofs.«148079_j2370821947944_1_alg».proof.Proof.Glue
import Idealize.ShloMosaic.Adequacy
import Idealize.ShloMosaic.Init

set_option maxRecDepth 16384

noncomputable section

open Idealize.ShloMosaic Idealize.ShloMosaic.TcCoe Idealize.SL.Sem

namespace Cert.Proof.SageClaims

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Bridge.run m ρ)

/-- The ideal pass rewrote nothing. -/
theorem preserves : Cert.preserves_Kernel_KernelIdeal := trivial

/-- Both programs end with the specification's log-softmax and second-layer output of arguments that agree. -/
theorem algebraic : Cert.algebraic_KernelIdeal_ReferenceIdeal := by
  intro m ρ m' ρ' _ hagree
  refine ⟨fun c => Cert.KernelIdeal.ValueV.logpOf m c, fun c => Cert.KernelIdeal.ValueV.logitsOf m c,
    Cert.KernelIdeal.ValueV.run m ρ, ?_⟩
  refine (θ_run Cert.ReferenceIdeal.defs _ _).mono (fun _ h c => ⟨(h c).1.trans ?_, (h c).2.1.trans ?_, (h c).2.2⟩)
    (Cert.ReferenceIdeal.Bridge.run m' ρ')
  · obtain ⟨e0, e1, e2, e3, e4, e5, e6, e7⟩ := hagree c
    rw [Cert.ReferenceIdeal.RefSpec.logp_eq, e0, e1, e2, e3, e4, e5, e6, e7]
    show _ = Cert.Sage.logp
        (Cert.KernelIdeal.Host.agg (Cert.KernelIdeal.Host.dst (m ((c.tc : Thread Cert.KernelIdeal.nD Cert.KernelIdeal.τ).loc Cert.KernelIdeal.main_arg1)))
          (Cert.KernelIdeal.Host.src (m ((c.tc : Thread Cert.KernelIdeal.nD Cert.KernelIdeal.τ).loc Cert.KernelIdeal.main_arg1))))
        (Cert.KernelIdeal.Host.agg (Cert.KernelIdeal.Host.dst (m ((c.tc : Thread Cert.KernelIdeal.nD Cert.KernelIdeal.τ).loc Cert.KernelIdeal.main_arg1)))
          (Cert.KernelIdeal.Host.src (m ((c.tc : Thread Cert.KernelIdeal.nD Cert.KernelIdeal.τ).loc Cert.KernelIdeal.main_arg1))))
        (Cert.KernelIdeal.Host.cnt (Cert.KernelIdeal.Host.dst (m ((c.tc : Thread Cert.KernelIdeal.nD Cert.KernelIdeal.τ).loc Cert.KernelIdeal.main_arg1)))) _ _ _ _ _ _ _
    rw [Cert.Glue.agg_eq, Cert.Glue.cnt_eq]
  · obtain ⟨e0, e1, e2, e3, e4, e5, e6, e7⟩ := hagree c
    rw [Cert.ReferenceIdeal.RefSpec.logits_eq, e0, e1, e2, e3, e4, e5, e6, e7]
    show _ = Cert.Sage.logits
        (Cert.KernelIdeal.Host.agg (Cert.KernelIdeal.Host.dst (m ((c.tc : Thread Cert.KernelIdeal.nD Cert.KernelIdeal.τ).loc Cert.KernelIdeal.main_arg1)))
          (Cert.KernelIdeal.Host.src (m ((c.tc : Thread Cert.KernelIdeal.nD Cert.KernelIdeal.τ).loc Cert.KernelIdeal.main_arg1))))
        (Cert.KernelIdeal.Host.agg (Cert.KernelIdeal.Host.dst (m ((c.tc : Thread Cert.KernelIdeal.nD Cert.KernelIdeal.τ).loc Cert.KernelIdeal.main_arg1)))
          (Cert.KernelIdeal.Host.src (m ((c.tc : Thread Cert.KernelIdeal.nD Cert.KernelIdeal.τ).loc Cert.KernelIdeal.main_arg1))))
        (Cert.KernelIdeal.Host.cnt (Cert.KernelIdeal.Host.dst (m ((c.tc : Thread Cert.KernelIdeal.nD Cert.KernelIdeal.τ).loc Cert.KernelIdeal.main_arg1)))) _ _ _ _ _ _ _
    rw [Cert.Glue.agg_eq, Cert.Glue.cnt_eq]

end Cert.Proof.SageClaims

namespace Cert.Proof

theorem claim : Cert.Claim :=
  ⟨Cert.Kernel.Gen.facts, Cert.KernelIdeal.Gen.facts, Cert.ReferenceIdeal.Gen.facts, Cert.Pre_finite_inputs.Gen.facts,
    SageClaims.frame_k, SageClaims.frame_ki, SageClaims.frame_ri, SageClaims.preserves, SageClaims.algebraic⟩

end Cert.Proof

end
